-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S2x4x1x64x64 : Shape := ⟨5, ![2, 4, 1, 64, 64]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S2x4x1x64x64 : S_.BroadcastsInDim S2x4x1x64x64 (![] : Fin 0 → Fin S2x4x1x64x64.rank)
  reducesTo_S2x4x1x64x64_S_d0_1_2_3_4 : S2x4x1x64x64.ReducesTo [0, 1, 2, 3, 4] S_

variable [Facts]

def fn {F : FTy → Type} [FloatOps F] (main_arg0 : FVec F S8x4096x3 .f32) (main_arg1 : FVec F S8x4096x3 .f32) (main_arg2 : FVec F S2x4x1x64x64 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S2x4x1x64x64 .f32 := Host.absf main_arg2
  let main_cst_2 : FVec F S_ .f32 := constant S_ .f32 0x7F800000#32
  let main_v10 : FVec F S2x4x1x64x64 .f32 := broadcastInDim S2x4x1x64x64 ![] bcast_S_S2x4x1x64x64 main_cst_2
  let main_v11 : IVec S2x4x1x64x64 1 := cmpf .olt main_v9 main_v10
  let main_c_3 : IVec S_ 1 := constantI S_ 1 1#1
  let main_v12 : IVec S_ 1 := (fun x v => Host.reduce IntOp.andi x v reducesTo_S2x4x1x64x64_S_d0_1_2_3_4 h_S_) main_v11 main_c_3
  let main_v13 : IVec S_ 1 := andi main_v8 main_v12
  main_v13
-- ==== Kernel.lean ====
abbrev S8x4096x3 : Shape := ⟨3, ![8, 4096, 3]⟩
abbrev S2x4x1x64x64 : Shape := ⟨5, ![2, 4, 1, 64, 64]⟩
abbrev S8x4096 : Shape := ⟨2, ![8, 4096]⟩
abbrev S8x8x4096 : Shape := ⟨3, ![8, 8, 4096]⟩
abbrev S8x512x3 : Shape := ⟨3, ![8, 512, 3]⟩
abbrev S8x256x3 : Shape := ⟨3, ![8, 256, 3]⟩
abbrev S8x512 : Shape := ⟨2, ![8, 512]⟩
abbrev S1x8x4096 : Shape := ⟨3, ![1, 8, 4096]⟩
abbrev S8x512x256 : Shape := ⟨3, ![8, 512, 256]⟩
abbrev S8x512x1 : Shape := ⟨3, ![8, 512, 1]⟩
abbrev S8x256x1 : Shape := ⟨3, ![8, 256, 1]⟩
abbrev S8x256 : Shape := ⟨2, ![8, 256]⟩
abbrev S8x1x256 : Shape := ⟨3, ![8, 1, 256]⟩
abbrev S_ : Shape := ⟨0, ![]⟩

abbrev nBuf : Space → Nat
  | .hbm => 18
  | .vmem => 10
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S2x4x1x64x64, .f32⟩
  | .hbm, ⟨3, _⟩ => ⟨S8x4096, .f32⟩
  | .hbm, ⟨4, _⟩ => ⟨S8x8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S8x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S8x512x3, .f32⟩
  | .local _ .vmem, ⟨1, _⟩ => ⟨S8x512x3, .f32⟩
  | .local _ .vmem, ⟨2, _⟩ => ⟨S8x256x3, .f32⟩
  | .local _ .vmem, ⟨3, _⟩ => ⟨S8x256x3, .f32⟩
  | .local _ .vmem, ⟨4, _⟩ => ⟨S8x512, .f32⟩
  | .local _ .vmem, ⟨5, _⟩ => ⟨S8x512, .f32⟩
  | .local _ .vmem, ⟨6, _⟩ => ⟨S1x8x4096, .f32⟩
  | .local _ .vmem, ⟨7, _⟩ => ⟨S1x8x4096, .f32⟩
  | .local _ .vmem, ⟨8, _⟩ => ⟨S8x512, .f32⟩
  | .local _ .vmem, ⟨9, _⟩ => ⟨S8x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c256_i32 : BitVec 32 := 256#32
  let v46 : BitVec 32 := Scalar.muli arg1 c256_i32
  v46
def k0_off1 (i : grid0.Coords) : Fin 2 → Nat :=
  let c0_12 : Index := 0#32
  let arg1 : BitVec 32 := BitVec.ofNat 32 (i 1).val
  let c256_i32 : BitVec 32 := 256#32
  let v46 : BitVec 32 := Scalar.muli arg1 c256_i32
  let v47 : BitVec 32 := v46
  let v48 : Index := Scalar.indexCast v47
  ![0, v48.toNat]
def k0_cond2 (i : grid0.Coords) : BitVec 1 :=
  let arg1 : BitVec 32 := BitVec.ofNat 32 (i 1).val
  let c15_i32 : BitVec 32 := 15#32
  let v52 : BitVec 1 := Scalar.cmpi .eq arg1 c15_i32
  let v53 : BitVec 32 := Scalar.extui v52
  let c0_i32_13 : BitVec 32 := 0#32
  let v54 : BitVec 1 := Scalar.cmpi .ne v53 c0_i32_13
  v54

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x3_S8x512x3_0_0_0 : ∀ a, (![0, 0, 0] : Fin 3 → Nat) a + S8x512x3.size a ≤ S8x512x3.size a
  h_S8x512x3 : 0 < S8x512x3.numel
  inb_S8x256x3_S8x256x3_0_0_0 : ∀ a, (![0, 0, 0] : Fin 3 → Nat) a + S8x256x3.size a ≤ S8x256x3.size a
  h_S8x256x3 : 0 < S8x256x3.numel
  slices_S8x512x3_o0_0_0_S8x512x1 : S8x512x3.Slices ![0, 0, 0] S8x512x1
  shapeCasts_S8x512x1_S8x512 : S8x512x1.ShapeCasts S8x512
  slices_S8x256x3_o0_0_0_S8x256x1 : S8x256x3.Slices ![0, 0, 0] S8x256x1
  shapeCasts_S8x256x1_S8x256 : S8x256x1.ShapeCasts S8x256
  shapeCasts_S8x512_S8x512x1 : S8x512.ShapeCasts S8x512x1
  shapeCasts_S8x256_S8x1x256 : S8x256.ShapeCasts S8x1x256
  broadcasts_S8x512x1_S8x512x256 : S8x512x1.Broadcasts S8x512x256
  broadcasts_S8x1x256_S8x512x256 : S8x1x256.Broadcasts S8x512x256
  slices_S8x512x3_o0_0_1_S8x512x1 : S8x512x3.Slices ![0, 0, 1] S8x512x1
  slices_S8x256x3_o0_0_1_S8x256x1 : S8x256x3.Slices ![0, 0, 1] S8x256x1
  slices_S8x512x3_o0_0_2_S8x512x1 : S8x512x3.Slices ![0, 0, 2] S8x512x1
  slices_S8x256x3_o0_0_2_S8x256x1 : S8x256x3.Slices ![0, 0, 2] S8x256x1
  reduces_S8x512x256_S8x512 : S8x512x256.Reduces [2] S8x512
  reduces_S8x512x256_S8x256 : S8x512x256.Reduces [1] S8x256
  h_S8x256 : 0 < S8x256.numel
  shapeCasts_S8x256_S8x256 : S8x256.ShapeCasts S8x256
  inb_S8x4096_S8x4096_0_0 : ∀ a, (![0, 0] : Fin 2 → Nat) a + S8x4096.size a ≤ S8x4096.size a
  h_S8x4096 : 0 < S8x4096.numel
  inb_S1x8x4096_S1x8x4096_0_0_0 : ∀ a, (![0, 0, 0] : Fin 3 → Nat) a + S1x8x4096.size a ≤ S1x8x4096.size a
  h_S1x8x4096 : 0 < S1x8x4096.numel
  shapeCasts_S1x8x4096_S8x4096 : S1x8x4096.ShapeCasts S8x4096
  shapeCasts_S8x4096_S1x8x4096 : S8x4096.ShapeCasts S1x8x4096
  reducesTo_S8x8x4096_S8x4096_d0 : S8x8x4096.ReducesTo [0] S8x4096
  h_S_ : 0 < S_.numel
  shapeCasts_S2x4x1x64x64_S8x4096 : S2x4x1x64x64.ShapeCasts S8x4096
  reducesTo_S8x4096_S_d0_1 : S8x4096.ReducesTo [0, 1] S_
  hrank0 : 0 < grid0.rank
  k0_mult1_dvd : ∀ i : grid0.Coords, 256 ∣ (k0_mult1 i).toNat
  k0_off1_inb : ∀ i : grid0.Coords, ∀ a, (k0_off1 i) a + S8x256.size a ≤ S8x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x3.size a ≤ S8x4096x3.size a
  hwx0_0 : ∀ i : grid0.Coords, EltTy.bits .f32 = 32 ∨ (Rect.block (s := S8x4096x3) S8x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x3.size a ≤ S8x4096x3.size a
  hwx0_1 : ∀ i : grid0.Coords, EltTy.bits .f32 = 32 ∨ (Rect.block (s := S8x4096x3) S8x256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x4096.size a ≤ S8x8x4096.size a
  hwx0_3 : ∀ i : grid0.Coords, EltTy.bits .f32 = 32 ∨ (Rect.block (s := S8x8x4096) S1x8x4096.size (cc0_transform_3 i) (hinb0_3 i)).WholeWords (EltTy.packing .f32)

variable [Facts₀]

abbrev win0_0 : Pipeline.Window sig grid0 :=
  Pipeline.Window.ofSpec (Memref.whole main_arg1) S8x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S2x4x1x64x64 : Shape := ⟨5, ![2, 4, 1, 64, 64]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S2x4x1x64x64, .f32⟩
  | .hbm, ⟨3, _⟩ => ⟨S8x4096x3, .f32⟩
  | .hbm, ⟨4, _⟩ => ⟨S_, .f32⟩
  | .hbm, ⟨5, _⟩ => ⟨S8x4096, .f32⟩
  | .hbm, ⟨6, _⟩ => ⟨S8x4096x3, .f32⟩
  | .hbm, ⟨7, _⟩ => ⟨S_, .f32⟩
  | .hbm, ⟨8, _⟩ => ⟨S8x4096, .f32⟩
  | .hbm, ⟨9, _⟩ => ⟨S8x4096x4096, .f32⟩
  | .hbm, ⟨10, _⟩ => ⟨S8x4096x1, .f32⟩
  | .hbm, ⟨11, _⟩ => ⟨S8x1x4096, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8x4096, .f32⟩
  | .hbm, ⟨26, _⟩ => ⟨S8x4096, .f32⟩
  | .hbm, ⟨27, _⟩ => ⟨S8x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  shapeCasts_S2x4x1x64x64_S8x4096 : S2x4x1x64x64.ShapeCasts S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.KCases.lean ====
/-
  The grid of the distance kernel is 8 tiles of 512 points of the first cloud (axis 0) by 16 tiles of 256 points of the
  second (axis 1, the fast one): point `t` is tile pair `(t / 16, t % 16)`.  The body branches twice on the second
  coordinate alone: at the first tile of a sweep (`t % 16 = 0`) it resets the running minimum, at the last
  (`t % 16 = 15`) it copies both scratch buffers out.  This module states the two conditions as the body computes
  them, decides them over the grid in closed form, and names the memrefs the body is called with.
-/
import proofs.«151664_j2602750181383_2_alg».proof.Proof.Gen.Kernel.Frame
import proofs.«151664_j2602750181383_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first test: the sweep coordinate is zero. -/
abbrev atFirst (i : grid0.Coords) : Prop :=
  (Scalar.cmpi .ne (Scalar.extui (Scalar.cmpi .eq (BitVec.ofNat 32 (i 1).val) 0#32)) 0#32) = 1#1
/-- The body's second test: the sweep coordinate is the last, 15. -/
abbrev atLast (i : grid0.Coords) : Prop := k0_cond2 i = 1#1

/-- Over the 128 points the first test holds exactly at the multiples of 16. -/
theorem atFirst_iff : ∀ t : Fin cfg0.N, atFirst (grid0.coords t) ↔ t.val % 16 = 0 :=
  (by decide +kernel : ∀ t : Fin grid0.N, atFirst (grid0.coords t) ↔ t.val % 16 = 0)
/-- And the second exactly at the points that are 15 modulo 16. -/
theorem atLast_iff : ∀ t : Fin cfg0.N, atLast (grid0.coords t) ↔ t.val % 16 = 15 :=
  (by decide +kernel : ∀ t : Fin grid0.N, atLast (grid0.coords t) ↔ t.val % 16 = 15)

/-- The slice of the second scratch the body stores at a point starts at column 256 · (t % 16). -/
theorem off_eq : ∀ t : Fin cfg0.N, k0_off1 (grid0.coords t) = ![0, 256 * (t.val % 16)] :=
  (by decide +kernel : ∀ t : Fin grid0.N, k0_off1 (grid0.coords t) = ![0, 256 * (t.val % 16)])

/-- The input windows are never idle. -/
theorem live0 : ∀ t : Fin cfg0.N, cfg0.idle 0 (grid0.coords t) = false := by decide +kernel
theorem live1 : ∀ t : Fin cfg0.N, cfg0.idle 1 (grid0.coords t) = false := by decide +kernel
/-- The output windows are idle except at the last tile of a sweep. -/
theorem idle2_iff : ∀ t : Fin cfg0.N, cfg0.idle 2 (grid0.coords t) = true ↔ ¬ t.val % 16 = 15 := by decide +kernel
theorem idle3_iff : ∀ t : Fin cfg0.N, cfg0.idle 3 (grid0.coords t) = true ↔ ¬ t.val % 16 = 15 := by decide +kernel

/-- The staging memrefs the pipeline calls the body with at point `t`, and the two scratch buffers. -/
abbrev mIn0 (t : Fin cfg0.N) : Memref sig .tc .vmem S8x512x3 .f32 := win0_0.stage (cfg0.slots t 0)
abbrev hIn0 (t : Fin cfg0.N) : (mIn0 t).IsWhole := hstage0_0 ((cfg0.slots t 0).cast nbuf0_0)
abbrev mIn1 (t : Fin cfg0.N) : Memref sig .tc .vmem S8x256x3 .f32 := win0_1.stage (cfg0.slots t 1)
abbrev hIn1 (t : Fin cfg0.N) : (mIn1 t).IsWhole := hstage0_1 ((cfg0.slots t 1).cast nbuf0_1)
abbrev mOut2 (t : Fin cfg0.N) : Memref sig .tc .vmem S8x512 .f32 := win0_2.stage (cfg0.slots t 2)
abbrev hOut2 (t : Fin cfg0.N) : (mOut2 t).IsWhole := hstage0_2 ((cfg0.slots t 2).cast nbuf0_2)
abbrev mOut3 (t : Fin cfg0.N) : Memref sig .tc .vmem S1x8x4096 .f32 := win0_3.stage (cfg0.slots t 3)
abbrev hOut3 (t : Fin cfg0.N) : (mOut3 t).IsWhole := hstage0_3 ((cfg0.slots t 3).cast nbuf0_3)
abbrev mAcc : Memref sig .tc .vmem S8x512 .f32 := Memref.whole cc0_scratch0
abbrev mPark : Memref sig .tc .vmem S8x4096 .f32 := Memref.whole cc0_scratch1

end Cert.Kernel.Body

end
-- ==== Proof.KRuns.lean ====
/-
  The body of the distance kernel on any whole memrefs holding named contents, in its three control cases.

  With `x0` the tile of 512 points of the first cloud, `x1` the tile of 256 points of the second, `s0` the running
  minimum (first scratch) and `s1` the parked column minima (second scratch) as the body finds them:
  every case leaves the running minimum at `min s (row minima of the tile's distances)`, where `s` is `s0`, or +∞
  at the first tile of a sweep, which resets it; every case stores the tile's column minima into the slice of the
  second scratch that belongs to the tile's position in the sweep and leaves the rest of it as it was (`parked`);
  and the last tile of a sweep copies both scratch buffers, as just updated, into the two output blocks, which the
  other cases do not touch.
-/
import proofs.«151664_j2602750181383_2_alg».proof.Proof.KCases
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second scratch after the body at grid coordinates `i` has stored the column minima `w` into its slice
    (all 8 rows, the 256 columns from `256 · i₁`) over the contents `s1`. -/
def parked (i : grid0.Coords) (w : FVec F S8x256 .f32) (s1 : Vec F S8x4096 .f32) : Vec F S8x4096 .f32 := fun y =>
  if h : ∀ a, k0_off1 i a ≤ (y a).val ∧ (y a).val < k0_off1 i a + S8x256.size a then
    w (Rect.unitLocal (s := S8x4096) (off := k0_off1 i) (size := S8x256.size) y h)
  else s1 y

theorem zeros2 : (![0, 0] : Fin 2 → ℕ) = fun _ => 0 := by funext a; fin_cases a <;> rfl
theorem zeros3 : (![0, 0, 0] : Fin 3 → ℕ) = fun _ => 0 := by funext a; fin_cases a <;> rfl

/-- Reading a whole buffer back after one slice was stored into it over contents that read `s1`. -/
theorem read_parked (i : grid0.Coords) (arg7 : Memref sig .tc .vmem S8x4096 .f32) (harg7 : arg7.IsWhole)
    (w : FVec F S8x256 .f32) (s1 : Vec F S8x4096 .f32) :
    arg7.view.read (Elt F) (arg7.view.writes (Elt F) (harg7.unread s1)
      [⟨Rect.unit (s := S8x4096) (k0_off1 i) S8x256.size (k0_off1_inb i), w⟩]) = parked i w s1 := by
  funext y
  refine (View.read_writes_cons_unit arg7.view (harg7.unread s1) (k0_off1_inb i) w [] y (off' := k0_off1 i) rfl).trans ?_
  unfold parked
  simp only [View.writes_nil, harg7.read_unread]

/-- One covering store over anything reads back as its payload. -/
theorem read_whole2 {S : Shape} (m : Memref sig .tc .vmem S .f32) (f : m.view.ty.Contents (Elt F)) {off : Fin S.rank → ℕ}
    (h : off = fun _ => 0) (inb : ∀ a, off a + S.size a ≤ S.size a) (w : S.Idx → Elt F .f32) (L : List (View.Piece (Elt F) S .f32)) :
    m.view.read (Elt F) (m.view.writes (Elt F) f ((⟨Rect.unit off S.size inb, w⟩ : View.Piece (Elt F) S .f32) :: L)) = w := by
  rw [View.read_writes_eq_canon _ _ _ (fun y => ⟨_, List.mem_cons_self, View.mem_set_unit_zero h inb y⟩),
    View.canon_cons_unit_zero h inb w L]

set_option maxHeartbeats 1000000 in
/-- The first tile of a sweep: the running minimum is reset to +∞ before the tile is folded in; the outputs are untouched. -/
theorem runFirst (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S1x8x4096 .f32) (harg5 : arg5.IsWhole) (arg6 : Memref sig .tc .vmem S8x512 .f32) (harg6 : arg6.IsWhole) (arg7 : Memref sig .tc .vmem S8x4096 .f32) (harg7 : arg7.IsWhole) (hF : atFirst i) (hL : ¬atLast i)
    (x0 : Vec F S8x512x3 .f32) (x1 : Vec F S8x256x3 .f32) (o2 : Vec F S8x512 .f32) (o3 : Vec F S1x8x4096 .f32)
    (s0 : Vec F S8x512 .f32) (s1 : Vec F S8x4096 .f32) (E : Set ℕ) (K : PUnit → sProp 𝕄) :
    iprop(owns (c : Thread nD τ) arg2 fullShare x0 ∗ owns (c : Thread nD τ) arg3 fullShare x1 ∗ owns (c : Thread nD τ) arg4 fullShare o2 ∗ owns (c : Thread nD τ) arg5 fullShare o3 ∗ owns (c : Thread nD τ) arg6 fullShare s0 ∗ owns (c : Thread nD τ) arg7 fullShare s1
        ∗ (iprop(owns (c : Thread nD τ) arg2 fullShare x0 ∗ owns (c : Thread nD τ) arg3 fullShare x1
            ∗ owns (c : Thread nD τ) arg4 fullShare o2
            ∗ owns (c : Thread nD τ) arg5 fullShare o3
            ∗ owns (c : Thread nD τ) arg6 fullShare (k0_pay1 (k0_pay6 x0 x1 (k0_pay4 (F := F))))
            ∗ owns (c : Thread nD τ) arg7 fullShare (parked i (k0_pay2 (k0_pay5 x0 x1)) s1)) -∗ K ⟨⟩))
      ⊢ wp frame (wpE (defs₀ (F := F)) Variants.none c none) E (cc0__chamfer_kernel i arg2 harg2 arg3 harg3 arg4 harg4 arg5 harg5 arg6 harg6 arg7 harg7) K := by
  simp only [cc0__chamfer_kernel_eq_skeleton]; unfold cc0__chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hfs0; obtain rfl := harg7.eq_unread hfs1
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro; exact harg4.read_unread _
  isplitl [H3]
  · iexists _; isplitr; swap; · iexact H3
    ipureintro; exact harg5.read_unread _
  isplitl [HS0]
  · iexists _; isplitr; swap; · iexact HS0
    ipureintro
    sl_unfold_words
    simp only [View.readAt_eq_ld, harg2.read_unread, harg3.read_unread, harg6.read_unread, View.ld_unit_zero (S := S8x512x3) zeros3, View.ld_unit_zero (S := S8x256x3) zeros3, View.ld_unit_zero (S := S8x512) zeros2, View.ld_unit_zero (S := S8x4096) zeros2, View.readCov_unit_zero (S := S8x512) arg6.view zeros2]
    exact read_whole2 (F := F) arg6 _ zeros2 _ _ _
  · iexists _; isplitr; swap; · iexact HS1
    ipureintro
    sl_unfold_words
    simp only [View.readAt_eq_ld, harg2.read_unread, harg3.read_unread, harg6.read_unread, View.ld_unit_zero (S := S8x512x3) zeros3, View.ld_unit_zero (S := S8x256x3) zeros3, View.ld_unit_zero (S := S8x512) zeros2, View.ld_unit_zero (S := S8x4096) zeros2, View.readCov_unit_zero (S := S8x512) arg6.view zeros2]
    exact read_parked i arg7 harg7 _ s1

set_option maxHeartbeats 1000000 in
/-- A tile inside a sweep: the tile is folded into the running minimum and its column minima parked; the outputs are untouched. -/
theorem runMid (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S1x8x4096 .f32) (harg5 : arg5.IsWhole) (arg6 : Memref sig .tc .vmem S8x512 .f32) (harg6 : arg6.IsWhole) (arg7 : Memref sig .tc .vmem S8x4096 .f32) (harg7 : arg7.IsWhole) (hF : ¬atFirst i) (hL : ¬atLast i)
    (x0 : Vec F S8x512x3 .f32) (x1 : Vec F S8x256x3 .f32) (o2 : Vec F S8x512 .f32) (o3 : Vec F S1x8x4096 .f32)
    (s0 : Vec F S8x512 .f32) (s1 : Vec F S8x4096 .f32) (E : Set ℕ) (K : PUnit → sProp 𝕄) :
    iprop(owns (c : Thread nD τ) arg2 fullShare x0 ∗ owns (c : Thread nD τ) arg3 fullShare x1 ∗ owns (c : Thread nD τ) arg4 fullShare o2 ∗ owns (c : Thread nD τ) arg5 fullShare o3 ∗ owns (c : Thread nD τ) arg6 fullShare s0 ∗ owns (c : Thread nD τ) arg7 fullShare s1
        ∗ (iprop(owns (c : Thread nD τ) arg2 fullShare x0 ∗ owns (c : Thread nD τ) arg3 fullShare x1
            ∗ owns (c : Thread nD τ) arg4 fullShare o2
            ∗ owns (c : Thread nD τ) arg5 fullShare o3
            ∗ owns (c : Thread nD τ) arg6 fullShare (k0_pay1 (k0_pay6 x0 x1 s0))
            ∗ owns (c : Thread nD τ) arg7 fullShare (parked i (k0_pay2 (k0_pay5 x0 x1)) s1)) -∗ K ⟨⟩))
      ⊢ wp frame (wpE (defs₀ (F := F)) Variants.none c none) E (cc0__chamfer_kernel i arg2 harg2 arg3 harg3 arg4 harg4 arg5 harg5 arg6 harg6 arg7 harg7) K := by
  simp only [cc0__chamfer_kernel_eq_skeleton]; unfold cc0__chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hfs0; obtain rfl := harg7.eq_unread hfs1
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro; exact harg4.read_unread _
  isplitl [H3]
  · iexists _; isplitr; swap; · iexact H3
    ipureintro; exact harg5.read_unread _
  isplitl [HS0]
  · iexists _; isplitr; swap; · iexact HS0
    ipureintro
    sl_unfold_words
    simp only [View.readAt_eq_ld, harg2.read_unread, harg3.read_unread, harg6.read_unread, View.ld_unit_zero (S := S8x512x3) zeros3, View.ld_unit_zero (S := S8x256x3) zeros3, View.ld_unit_zero (S := S8x512) zeros2, View.ld_unit_zero (S := S8x4096) zeros2, View.readCov_unit_zero (S := S8x512) arg6.view zeros2]
    exact read_whole2 (F := F) arg6 _ zeros2 _ _ _
  · iexists _; isplitr; swap; · iexact HS1
    ipureintro
    sl_unfold_words
    simp only [View.readAt_eq_ld, harg2.read_unread, harg3.read_unread, harg6.read_unread, View.ld_unit_zero (S := S8x512x3) zeros3, View.ld_unit_zero (S := S8x256x3) zeros3, View.ld_unit_zero (S := S8x512) zeros2, View.ld_unit_zero (S := S8x4096) zeros2, View.readCov_unit_zero (S := S8x512) arg6.view zeros2]
    exact read_parked i arg7 harg7 _ s1

set_option maxHeartbeats 1000000 in
/-- The last tile of a sweep: the tile is folded in, its column minima parked, and both scratch buffers copied out. -/
theorem runLast (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S1x8x4096 .f32) (harg5 : arg5.IsWhole) (arg6 : Memref sig .tc .vmem S8x512 .f32) (harg6 : arg6.IsWhole) (arg7 : Memref sig .tc .vmem S8x4096 .f32) (harg7 : arg7.IsWhole) (hF : ¬atFirst i) (hL : atLast i)
    (x0 : Vec F S8x512x3 .f32) (x1 : Vec F S8x256x3 .f32) (o2 : Vec F S8x512 .f32) (o3 : Vec F S1x8x4096 .f32)
    (s0 : Vec F S8x512 .f32) (s1 : Vec F S8x4096 .f32) (E : Set ℕ) (K : PUnit → sProp 𝕄) :
    iprop(owns (c : Thread nD τ) arg2 fullShare x0 ∗ owns (c : Thread nD τ) arg3 fullShare x1 ∗ owns (c : Thread nD τ) arg4 fullShare o2 ∗ owns (c : Thread nD τ) arg5 fullShare o3 ∗ owns (c : Thread nD τ) arg6 fullShare s0 ∗ owns (c : Thread nD τ) arg7 fullShare s1
        ∗ (iprop(owns (c : Thread nD τ) arg2 fullShare x0 ∗ owns (c : Thread nD τ) arg3 fullShare x1
            ∗ owns (c : Thread nD τ) arg4 fullShare (k0_pay1 (k0_pay6 x0 x1 s0))
            ∗ owns (c : Thread nD τ) arg5 fullShare (k0_pay3 (parked i (k0_pay2 (k0_pay5 x0 x1)) s1))
            ∗ owns (c : Thread nD τ) arg6 fullShare (k0_pay1 (k0_pay6 x0 x1 s0))
            ∗ owns (c : Thread nD τ) arg7 fullShare (parked i (k0_pay2 (k0_pay5 x0 x1)) s1)) -∗ K ⟨⟩))
      ⊢ wp frame (wpE (defs₀ (F := F)) Variants.none c none) E (cc0__chamfer_kernel i arg2 harg2 arg3 harg3 arg4 harg4 arg5 harg5 arg6 harg6 arg7 harg7) K := by
  simp only [cc0__chamfer_kernel_eq_skeleton]; unfold cc0__chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hfs0; obtain rfl := harg7.eq_unread hfs1
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    simp only [View.readAt_eq_ld, harg2.read_unread, harg3.read_unread, harg6.read_unread, View.ld_unit_zero (S := S8x512x3) zeros3, View.ld_unit_zero (S := S8x256x3) zeros3, View.ld_unit_zero (S := S8x512) zeros2, View.ld_unit_zero (S := S8x4096) zeros2, View.readCov_unit_zero (S := S8x512) arg6.view zeros2]
    exact read_whole2 (F := F) arg4 _ zeros2 _ _ _
  isplitl [H3]
  · iexists _; isplitr; swap; · iexact H3
    ipureintro
    sl_unfold_words
    simp only [View.readAt_eq_ld, harg2.read_unread, harg3.read_unread, harg6.read_unread, View.ld_unit_zero (S := S8x512x3) zeros3, View.ld_unit_zero (S := S8x256x3) zeros3, View.ld_unit_zero (S := S8x512) zeros2, View.ld_unit_zero (S := S8x4096) zeros2, View.readCov_unit_zero (S := S8x512) arg6.view zeros2]
    exact (read_whole2 (F := F) arg5 _ zeros3 _ _ _).trans (congrArg k0_pay3 (read_parked i arg7 harg7 _ s1))
  isplitl [HS0]
  · iexists _; isplitr; swap; · iexact HS0
    ipureintro
    sl_unfold_words
    simp only [View.readAt_eq_ld, harg2.read_unread, harg3.read_unread, harg6.read_unread, View.ld_unit_zero (S := S8x512x3) zeros3, View.ld_unit_zero (S := S8x256x3) zeros3, View.ld_unit_zero (S := S8x512) zeros2, View.ld_unit_zero (S := S8x4096) zeros2, View.readCov_unit_zero (S := S8x512) arg6.view zeros2]
    exact read_whole2 (F := F) arg6 _ zeros2 _ _ _
  · iexists _; isplitr; swap; · iexact HS1
    ipureintro
    sl_unfold_words
    simp only [View.readAt_eq_ld, harg2.read_unread, harg3.read_unread, harg6.read_unread, View.ld_unit_zero (S := S8x512x3) zeros3, View.ld_unit_zero (S := S8x256x3) zeros3, View.ld_unit_zero (S := S8x512) zeros2, View.ld_unit_zero (S := S8x4096) zeros2, View.readCov_unit_zero (S := S8x512) arg6.view zeros2]
    exact read_parked i arg7 harg7 _ s1

end Cert.Kernel.Body

end
-- ==== Proof.KData.lean ====
/-
  What the two scratch buffers and the two output blocks of the distance kernel hold point by point, and the
  pipeline's proof data stated over it.

  Point `t` works on tile `t / 16` of the first cloud and tile `t % 16` of the second.  The first scratch carries the
  running row minimum of the sweep: reset at `t % 16 = 0`, folded at every point (`accAt`, by recursion on the point).
  The second scratch is filled one slice per point: after point `t` its columns below `256 · (t % 16 + 1)` hold the
  column minima of the tiles of the current sweep met so far (`Filled`), whatever it held before the region; so at
  the last point of a sweep all of it is determined (`parkedAll`).  At that point both are copied to the outputs.
-/
import proofs.«151664_j2602750181383_2_alg».proof.Proof.KRuns
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem N_eq : cfg0.N = 128 := N_0

/-- The running row minimum after point `n`: the point's tile folded into +∞ at the first point of a sweep, into what
    the point before left otherwise. -/
def accAt (c : Dev nD) : (n : ℕ) → n < cfg0.N → Vec F S8x512 .f32
  | 0, hn => k0_pay1 (k0_pay6 (iblk m c 0 ⟨0, hn⟩) (iblk m c 1 ⟨0, hn⟩) (k0_pay4 (F := F)))
  | n + 1, hn =>
    if (n + 1) % 16 = 0 then k0_pay1 (k0_pay6 (iblk m c 0 ⟨n + 1, hn⟩) (iblk m c 1 ⟨n + 1, hn⟩) (k0_pay4 (F := F)))
    else k0_pay1 (k0_pay6 (iblk m c 0 ⟨n + 1, hn⟩) (iblk m c 1 ⟨n + 1, hn⟩) (accAt c n (Nat.lt_of_succ_lt hn)))

theorem accAt_first (c : Dev nD) (t : Fin cfg0.N) (h : t.val % 16 = 0) :
    accAt m c t.val t.isLt = k0_pay1 (k0_pay6 (iblk m c 0 t) (iblk m c 1 t) (k0_pay4 (F := F))) := by
  obtain ⟨n, hn⟩ := t
  cases n with
  | zero => rfl
  | succ n => exact if_pos h

theorem accAt_next (c : Dev nD) (t : Fin cfg0.N) (h : ¬t.val % 16 = 0) :
    accAt m c t.val t.isLt = k0_pay1 (k0_pay6 (iblk m c 0 t) (iblk m c 1 t)
      (accAt m c (t.val - 1) (Nat.lt_of_le_of_lt (Nat.sub_le _ _) t.isLt))) := by
  obtain ⟨n, hn⟩ := t
  cases n with
  | zero => exact absurd (Nat.zero_mod _) h
  | succ n => exact if_neg h

/-- The column minima of the tile pair at point `t`. -/
def colMin (c : Dev nD) (t : Fin cfg0.N) : FVec F S8x256 .f32 := k0_pay2 (k0_pay5 (iblk m c 0 t) (iblk m c 1 t))

/-- The grid point numbered `n` (taken modulo the grid's 128 points, so that no bound is carried). -/
def pt (n : ℕ) : Fin cfg0.N := ⟨n % 128, by rw [N_eq]; exact Nat.mod_lt _ (by norm_num)⟩

theorem pt_val (t : Fin cfg0.N) : pt t.val = t :=
  Fin.ext (Nat.mod_eq_of_lt (lt_of_lt_of_eq t.isLt N_eq))

/-- The second scratch once sweep `p` is complete: column `y₁` holds the column minimum of the tile pair
    `(p, y₁ / 256)` at its local column `y₁ % 256`. -/
def parkedAll (c : Dev nD) (p : ℕ) : Vec F S8x4096 .f32 := fun y =>
  colMin m c (pt (16 * p + (y 1).val / 256)) (ix2 (y 0) ⟨(y 1).val % 256, Nat.mod_lt _ (by norm_num)⟩)

/-- After point `t` the second scratch agrees with the completed sweep on the columns filled so far. -/
def Filled (c : Dev nD) (t : Fin cfg0.N) (d : Vec F S8x4096 .f32) : Prop :=
  ∀ y : S8x4096.Idx, (y 1).val < 256 * (t.val % 16 + 1) → d y = parkedAll m c (t.val / 16) y

/-- One point's store keeps the agreement: the new slice is the point's own tile, the columns before it were filled
    by the earlier points of the same sweep. -/
theorem filled_step (c : Dev nD) (t : Fin cfg0.N) (d : Vec F S8x4096 .f32)
    (hprev : ¬t.val % 16 = 0 → ∀ y : S8x4096.Idx, (y 1).val < 256 * (t.val % 16) → d y = parkedAll m c (t.val / 16) y) :
    Filled m c t (parked (grid0.coords t) (colMin m c t) d) := by
  intro y hy
  have hy0 : (y 0).val < 8 := (y 0).isLt
  have hy1 : (y 1).val < 4096 := (y 1).isLt
  unfold parked
  by_cases h : ∀ a, k0_off1 (grid0.coords t) a ≤ (y a).val ∧ (y a).val < k0_off1 (grid0.coords t) a + S8x256.size a
  · rw [dif_pos h]
    have h1 := h 1
    rw [off_eq t] at h1
    have h1' : 256 * (t.val % 16) ≤ (y 1).val ∧ (y 1).val < 256 * (t.val % 16) + 256 := h1
    have hq : (y 1).val / 256 = t.val % 16 := by omega
    unfold parkedAll
    have hpt : pt (16 * (t.val / 16) + (y 1).val / 256) = t := by
      rw [hq, show 16 * (t.val / 16) + t.val % 16 = t.val from Nat.div_add_mod _ _]; exact pt_val t
    rw [hpt]
    refine congrArg (colMin m c t) ?_
    funext a
    refine Fin.ext ?_
    match a with
    | ⟨0, _⟩ =>
      show (y 0).val - k0_off1 (grid0.coords t) 0 = (y 0).val
      rw [off_eq t]; exact Nat.sub_zero _
    | ⟨1, _⟩ =>
      show (y 1).val - k0_off1 (grid0.coords t) 1 = (y 1).val % 256
      rw [off_eq t]
      show (y 1).val - 256 * (t.val % 16) = (y 1).val % 256
      omega
  · rw [dif_neg h]
    have hlt : (y 1).val < 256 * (t.val % 16) := by
      by_contra hge
      refine h fun a => ?_
      rw [off_eq t]
      match a with
      | ⟨0, _⟩ => exact ⟨Nat.zero_le _, by show (y 0).val < 0 + 8; omega⟩
      | ⟨1, _⟩ => exact ⟨by show 256 * (t.val % 16) ≤ (y 1).val; omega, by show (y 1).val < 256 * (t.val % 16) + 256; omega⟩
    have hne : ¬t.val % 16 = 0 := by intro h0; rw [h0] at hlt; omega
    exact hprev hne y hlt

/-- What the point before left, restated for the next point of the same sweep. -/
theorem filled_prev (c : Dev nD) (t : Fin cfg0.N) (d : Vec F S8x4096 .f32) (hz : t.val ≠ 0)
    (hd : Filled m c ⟨t.val - 1, Nat.lt_of_le_of_lt (Nat.sub_le _ _) t.isLt⟩ d) :
    ¬t.val % 16 = 0 → ∀ y : S8x4096.Idx, (y 1).val < 256 * (t.val % 16) → d y = parkedAll m c (t.val / 16) y := by
  intro hne y hy
  have e1 : (t.val - 1) % 16 + 1 = t.val % 16 := by omega
  have e2 : (t.val - 1) / 16 = t.val / 16 := by omega
  have := hd y (by show (y 1).val < 256 * ((t.val - 1) % 16 + 1); rw [e1]; exact hy)
  rw [show (⟨t.val - 1, Nat.lt_of_le_of_lt (Nat.sub_le _ _) t.isLt⟩ : Fin cfg0.N).val / 16 = t.val / 16 from e2] at this
  exact this

/-- At the last point of a sweep the agreement is on every column. -/
theorem filled_last (c : Dev nD) (t : Fin cfg0.N) (d : Vec F S8x4096 .f32) (hl : t.val % 16 = 15) (hd : Filled m c t d) :
    d = parkedAll m c (t.val / 16) :=
  funext fun y => hd y (by have : (y 1).val < 4096 := (y 1).isLt; rw [hl]; omega)

/-! ## The region invariant -/

/-- The launch invariant with the two scratch buffers as memrefs owned at some contents. -/
theorem PhiA_eq (c : Dev nD) :
    (Pipeline.ΦA spec0 c : sProp 𝕄)
      = iprop(iprop((∃ d, owns (c : Thread nD τ) mAcc fullShare d) ∗ (∃ d, owns (c : Thread nD τ) mPark fullShare d)) ∗ (∃ r, prngReg c r)) := by
  unfold Pipeline.ΦA; rw [scopedRest0_eq]; simp only [mAcc, mPark, owns_whole]; try rfl

/-- Before point `n`: at the region's entry the launch invariant; afterwards the first scratch at the running
    minimum the point before left, the second at contents that agree with the sweep so far, the generator register at
    some state. -/
def Phi (c : Dev nD) : (n : ℕ) → n ≤ cfg0.N → sProp 𝕄
  | 0, _ => Pipeline.ΦA spec0 c
  | n + 1, hn => iprop(iprop(owns (c : Thread nD τ) mAcc fullShare (accAt m c n hn)
      ∗ (∃ d, ⌜Filled m c ⟨n, hn⟩ d⌝ ∗ owns (c : Thread nD τ) mPark fullShare d)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) mAcc fullShare (accAt m c n hn)
      ∗ (∃ d, ⌜Filled m c ⟨n, hn⟩ d⌝ ∗ owns (c : Thread nD τ) mPark fullShare d)) ∗ (∃ r, prngReg c r)) := rfl

theorem Phi_pos (c : Dev nD) (n : ℕ) (h : n ≤ cfg0.N) (hz : n ≠ 0) :
    Phi m c n h = iprop(iprop(owns (c : Thread nD τ) mAcc fullShare (accAt m c (n - 1) (by omega))
      ∗ (∃ d, ⌜Filled m c ⟨n - 1, by omega⟩ d⌝ ∗ owns (c : Thread nD τ) mPark fullShare d)) ∗ (∃ r, prngReg c r)) := by
  cases n with
  | zero => exact absurd rfl hz
  | succ n => rfl

/-! ## The proof data -/

/-- The proof data of the pipeline on core `c`: the arrays as the region finds them; after the body at point `t` each
    input's buffer at its block, the first output's at the running minimum, the second's at the completed sweep's
    column minima (both read only at the last point of a sweep, where the body stores them); nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
    | ⟨3, _⟩ => k0_pay3 (parkedAll m c (t.val / 16))
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = accAt m c t.val t.isLt := by dsimp only [dats]
theorem after_3 (c : Dev nD) (t : Fin cfg0.N) : (dats m 0 c).after 3 t = k0_pay3 (parkedAll m c (t.val / 16)) := by dsimp only [dats]

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

end Cert.Kernel.Body

end
-- ==== Proof.KBody.lean ====
/-
  The body obligation of the distance kernel against the proof data, the frame run, and the frame.

  At every point the invariant hands the body the two scratch buffers — at anything before the first point of the
  region, afterwards at the running minimum and at contents agreeing with the current sweep so far —, the body's case
  is read off the point's position in its sweep, the case's run applies, and the invariant takes the scratch buffers
  back one point further.  The output buffers are handed back as found except at the last point of a sweep, where they
  receive the two scratch buffers' contents.
-/
import proofs.«151664_j2602750181383_2_alg».proof.Proof.KData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem noflush2 (t : Fin cfg0.N) (h1 : ¬t.val % 16 = 15) : (cfg0.win 2).flush t = false := by
  cases hfl : (cfg0.win 2).flush t with
  | false => rfl
  | true => exact absurd ((flush0_2 t).mp hfl) h1
theorem noflush3 (t : Fin cfg0.N) (h1 : ¬t.val % 16 = 15) : (cfg0.win 3).flush t = false := by
  cases hfl : (cfg0.win 3).flush t with
  | false => rfl
  | true => exact absurd ((flush0_3 t).mp hfl) h1
theorem busy2 (t : Fin cfg0.N) (h1 : t.val % 16 = 15) : cfg0.idle 2 (grid0.coords t) = false := by
  cases hi : cfg0.idle 2 (grid0.coords t) with
  | false => rfl
  | true => exact absurd h1 ((idle2_iff t).mp hi)
theorem busy3 (t : Fin cfg0.N) (h1 : t.val % 16 = 15) : cfg0.idle 3 (grid0.coords t) = false := by
  cases hi : cfg0.idle 3 (grid0.coords t) with
  | false => rfl
  | true => exact absurd h1 ((idle3_iff t).mp hi)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mIn0 t) fullShare ((dats m 0 c).before 0 t d))
    ∗ (∃ d, owns (c : Thread nD τ) (mIn1 t) fullShare ((dats m 0 c).before 1 t d))
    ∗ (∃ d, owns (c : Thread nD τ) (mOut2 t) fullShare ((dats m 0 c).before 2 t d))
    ∗ (∃ d, owns (c : Thread nD τ) (mOut3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (mIn0 t) fullShare ((dats m 0 c).after 0 t) from by
    unfold Dat.leavesExact; rw [live0 t], after_0]
  rw [show (dats m 0 c).leavesExact 1 t = owns (c : Thread nD τ) (mIn1 t) fullShare ((dats m 0 c).after 1 t) from by
    unfold Dat.leavesExact; rw [live1 t], after_1]
  have hN : t.val < 128 := lt_of_lt_of_eq t.isLt N_eq
  by_cases h1 : t.val % 16 = 15
  · -- the last point of a sweep
    have h0 : ¬t.val % 16 = 0 := by omega
    have hz : t.val ≠ 0 := by omega
    rw [show (dats m 0 c).leavesExact 2 t = owns (c : Thread nD τ) (mOut2 t) fullShare ((dats m 0 c).after 2 t) from by
      unfold Dat.leavesExact; rw [busy2 t h1], after_2]
    rw [show (dats m 0 c).leavesExact 3 t = owns (c : Thread nD τ) (mOut3 t) fullShare ((dats m 0 c).after 3 t) from by
      unfold Dat.leavesExact; rw [busy3 t h1], after_3]
    rw [accAt_next m c t h0, Phi_castSucc m c t, Phi_pos m c _ _ hz]
    iintro ⟨⟨⟨HS0, ⟨%dp, %hdp, HS1⟩⟩, Hg⟩, Ho, ⟨%d0, H0⟩, ⟨%d1, H1⟩, ⟨%d2, H2⟩, ⟨%d3, H3⟩⟩
    have hfill := filled_step m c t dp (filled_prev m c t dp hz hdp)
    have hall : parked (grid0.coords t) (colMin m c t) dp = parkedAll m c (t.val / 16) := filled_last m c t _ h1 hfill
    unfold colMin at hall
    iapply (runLast c (grid0.coords t) _ _ _ _ _ _ _ _ _ _ _ _ (fun h => h0 ((atFirst_iff t).mp h)) ((atLast_iff t).mpr h1) (iblk m c 0 t) (iblk m c 1 t) _ _ _ dp Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    rw [hall]
    isplitl [HS0 HS1 Hg]
    · isplitl [HS0 HS1]
      · isplitl [HS0]; · iexact HS0
        iexists _; isplitr; swap; · iexact HS1
        ipureintro; rw [← hall]; exact hfill
      iexact Hg
    isplitl [Ho]; · iexact Ho
    isplitl [H0]; · iexact H0
    isplitl [H1]; · iexact H1
    isplitl [H2]; · iexact H2
    iexact H3
  · rw [Dat.leavesExact_idle (dats m 0 c) 2 t ((idle2_iff t).mpr h1) (noflush2 t h1),
      Dat.leavesExact_idle (dats m 0 c) 3 t ((idle3_iff t).mpr h1) (noflush3 t h1)]
    by_cases h0 : t.val % 16 = 0
    · -- the first point of a sweep
      rw [accAt_first m c t h0]
      by_cases hz : t.val = 0
      · rw [Phi_castSucc m c t, Phi_zero m c _ _ hz, PhiA_eq]
        iintro ⟨⟨⟨⟨%e0, HS0⟩, ⟨%dp, HS1⟩⟩, Hg⟩, Ho, ⟨%d0, H0⟩, ⟨%d1, H1⟩, ⟨%d2, H2⟩, ⟨%d3, H3⟩⟩
        iapply (runFirst c (grid0.coords t) _ _ _ _ _ _ _ _ _ _ _ _ ((atFirst_iff t).mpr h0) (fun h => h1 ((atLast_iff t).mp h)) (iblk m c 0 t) (iblk m c 1 t) _ _ e0 dp Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexists _; isplitr; swap; · iexact HS1
            ipureintro; exact filled_step m c t _ (fun hne => absurd h0 hne)
          iexact Hg
        isplitl [Ho]; · iexact Ho
        isplitl [H0]; · iexact H0
        isplitl [H1]; · iexact H1
        isplitl [H2]; · iexists _; iexact H2
        iexists _; iexact H3
      · rw [Phi_castSucc m c t, Phi_pos m c _ _ hz]
        iintro ⟨⟨⟨HS0, ⟨%dp, %hdp, HS1⟩⟩, Hg⟩, Ho, ⟨%d0, H0⟩, ⟨%d1, H1⟩, ⟨%d2, H2⟩, ⟨%d3, H3⟩⟩
        iapply (runFirst c (grid0.coords t) _ _ _ _ _ _ _ _ _ _ _ _ ((atFirst_iff t).mpr h0) (fun h => h1 ((atLast_iff t).mp h)) (iblk m c 0 t) (iblk m c 1 t) _ _ _ dp Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexists _; isplitr; swap; · iexact HS1
            ipureintro; exact filled_step m c t _ (fun hne => absurd h0 hne)
          iexact Hg
        isplitl [Ho]; · iexact Ho
        isplitl [H0]; · iexact H0
        isplitl [H1]; · iexact H1
        isplitl [H2]; · iexists _; iexact H2
        iexists _; iexact H3
    · -- a point inside a sweep
      have hz : t.val ≠ 0 := by intro hz; rw [hz] at h0; exact h0 (Nat.zero_mod _)
      rw [accAt_next m c t h0, Phi_castSucc m c t, Phi_pos m c _ _ hz]
      iintro ⟨⟨⟨HS0, ⟨%dp, %hdp, HS1⟩⟩, Hg⟩, Ho, ⟨%d0, H0⟩, ⟨%d1, H1⟩, ⟨%d2, H2⟩, ⟨%d3, H3⟩⟩
      iapply (runMid c (grid0.coords t) _ _ _ _ _ _ _ _ _ _ _ _ (fun h => h0 ((atFirst_iff t).mp h)) (fun h => h1 ((atLast_iff t).mp h)) (iblk m c 0 t) (iblk m c 1 t) _ _ _ dp Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]; · iexact HS0
          iexists _; isplitr; swap; · iexact HS1
          ipureintro; exact filled_step m c t _ (filled_prev m c t dp hz hdp)
        iexact Hg
      isplitl [Ho]; · iexact Ho
      isplitl [H0]; · iexact H0
      isplitl [H1]; · iexact H1
      isplitl [H2]; · iexists _; iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives the launch invariant back: the scratch contents are forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last, N_eq]; norm_num), PhiA_eq]
  iintro ⟨⟨HS0, ⟨%d, -, HS1⟩⟩, Hg⟩
  isplitl [HS0 HS1]
  · isplitl [HS0]
    · iexists _; iexact HS0
    iexists _; iexact HS1
  iexact Hg

set_option backward.isDefEq.respectTransparency.types false in
/-- Every weakly fair execution of @main terminates; every array of the pipeline ends at what the library computes from
    the proof data, and every other unscoped buffer at what the host lines after the region compute from them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c w => by unfold Dat.share; split <;> rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KICases.lean ====
/-
  The grid of the distance kernel is 8 tiles of 512 points of the first cloud (axis 0) by 16 tiles of 256 points of the
  second (axis 1, the fast one): point `t` is tile pair `(t / 16, t % 16)`.  The body branches twice on the second
  coordinate alone: at the first tile of a sweep (`t % 16 = 0`) it resets the running minimum, at the last
  (`t % 16 = 15`) it copies both scratch buffers out.  This module states the two conditions as the body computes
  them, decides them over the grid in closed form, and names the memrefs the body is called with.
-/
import proofs.«151664_j2602750181383_2_alg».proof.Proof.Gen.KernelIdeal.Frame
import proofs.«151664_j2602750181383_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first test: the sweep coordinate is zero. -/
abbrev atFirst (i : grid0.Coords) : Prop :=
  (Scalar.cmpi .ne (Scalar.extui (Scalar.cmpi .eq (BitVec.ofNat 32 (i 1).val) 0#32)) 0#32) = 1#1
/-- The body's second test: the sweep coordinate is the last, 15. -/
abbrev atLast (i : grid0.Coords) : Prop := k0_cond2 i = 1#1

/-- Over the 128 points the first test holds exactly at the multiples of 16. -/
theorem atFirst_iff : ∀ t : Fin cfg0.N, atFirst (grid0.coords t) ↔ t.val % 16 = 0 :=
  (by decide +kernel : ∀ t : Fin grid0.N, atFirst (grid0.coords t) ↔ t.val % 16 = 0)
/-- And the second exactly at the points that are 15 modulo 16. -/
theorem atLast_iff : ∀ t : Fin cfg0.N, atLast (grid0.coords t) ↔ t.val % 16 = 15 :=
  (by decide +kernel : ∀ t : Fin grid0.N, atLast (grid0.coords t) ↔ t.val % 16 = 15)

/-- The slice of the second scratch the body stores at a point starts at column 256 · (t % 16). -/
theorem off_eq : ∀ t : Fin cfg0.N, k0_off1 (grid0.coords t) = ![0, 256 * (t.val % 16)] :=
  (by decide +kernel : ∀ t : Fin grid0.N, k0_off1 (grid0.coords t) = ![0, 256 * (t.val % 16)])

/-- The input windows are never idle. -/
theorem live0 : ∀ t : Fin cfg0.N, cfg0.idle 0 (grid0.coords t) = false := by decide +kernel
theorem live1 : ∀ t : Fin cfg0.N, cfg0.idle 1 (grid0.coords t) = false := by decide +kernel
/-- The output windows are idle except at the last tile of a sweep. -/
theorem idle2_iff : ∀ t : Fin cfg0.N, cfg0.idle 2 (grid0.coords t) = true ↔ ¬ t.val % 16 = 15 := by decide +kernel
theorem idle3_iff : ∀ t : Fin cfg0.N, cfg0.idle 3 (grid0.coords t) = true ↔ ¬ t.val % 16 = 15 := by decide +kernel

/-- The staging memrefs the pipeline calls the body with at point `t`, and the two scratch buffers. -/
abbrev mIn0 (t : Fin cfg0.N) : Memref sig .tc .vmem S8x512x3 .f32 := win0_0.stage (cfg0.slots t 0)
abbrev hIn0 (t : Fin cfg0.N) : (mIn0 t).IsWhole := hstage0_0 ((cfg0.slots t 0).cast nbuf0_0)
abbrev mIn1 (t : Fin cfg0.N) : Memref sig .tc .vmem S8x256x3 .f32 := win0_1.stage (cfg0.slots t 1)
abbrev hIn1 (t : Fin cfg0.N) : (mIn1 t).IsWhole := hstage0_1 ((cfg0.slots t 1).cast nbuf0_1)
abbrev mOut2 (t : Fin cfg0.N) : Memref sig .tc .vmem S8x512 .f32 := win0_2.stage (cfg0.slots t 2)
abbrev hOut2 (t : Fin cfg0.N) : (mOut2 t).IsWhole := hstage0_2 ((cfg0.slots t 2).cast nbuf0_2)
abbrev mOut3 (t : Fin cfg0.N) : Memref sig .tc .vmem S1x8x4096 .f32 := win0_3.stage (cfg0.slots t 3)
abbrev hOut3 (t : Fin cfg0.N) : (mOut3 t).IsWhole := hstage0_3 ((cfg0.slots t 3).cast nbuf0_3)
abbrev mAcc : Memref sig .tc .vmem S8x512 .f32 := Memref.whole cc0_scratch0
abbrev mPark : Memref sig .tc .vmem S8x4096 .f32 := Memref.whole cc0_scratch1

end Cert.KernelIdeal.Body

end
-- ==== Proof.KIRuns.lean ====
/-
  The body of the distance kernel on any whole memrefs holding named contents, in its three control cases.

  With `x0` the tile of 512 points of the first cloud, `x1` the tile of 256 points of the second, `s0` the running
  minimum (first scratch) and `s1` the parked column minima (second scratch) as the body finds them:
  every case leaves the running minimum at `min s (row minima of the tile's distances)`, where `s` is `s0`, or +∞
  at the first tile of a sweep, which resets it; every case stores the tile's column minima into the slice of the
  second scratch that belongs to the tile's position in the sweep and leaves the rest of it as it was (`parked`);
  and the last tile of a sweep copies both scratch buffers, as just updated, into the two output blocks, which the
  other cases do not touch.
-/
import proofs.«151664_j2602750181383_2_alg».proof.Proof.KICases
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second scratch after the body at grid coordinates `i` has stored the column minima `w` into its slice
    (all 8 rows, the 256 columns from `256 · i₁`) over the contents `s1`. -/
def parked (i : grid0.Coords) (w : FVec F S8x256 .f32) (s1 : Vec F S8x4096 .f32) : Vec F S8x4096 .f32 := fun y =>
  if h : ∀ a, k0_off1 i a ≤ (y a).val ∧ (y a).val < k0_off1 i a + S8x256.size a then
    w (Rect.unitLocal (s := S8x4096) (off := k0_off1 i) (size := S8x256.size) y h)
  else s1 y

theorem zeros2 : (![0, 0] : Fin 2 → ℕ) = fun _ => 0 := by funext a; fin_cases a <;> rfl
theorem zeros3 : (![0, 0, 0] : Fin 3 → ℕ) = fun _ => 0 := by funext a; fin_cases a <;> rfl

/-- Reading a whole buffer back after one slice was stored into it over contents that read `s1`. -/
theorem read_parked (i : grid0.Coords) (arg7 : Memref sig .tc .vmem S8x4096 .f32) (harg7 : arg7.IsWhole)
    (w : FVec F S8x256 .f32) (s1 : Vec F S8x4096 .f32) :
    arg7.view.read (Elt F) (arg7.view.writes (Elt F) (harg7.unread s1)
      [⟨Rect.unit (s := S8x4096) (k0_off1 i) S8x256.size (k0_off1_inb i), w⟩]) = parked i w s1 := by
  funext y
  refine (View.read_writes_cons_unit arg7.view (harg7.unread s1) (k0_off1_inb i) w [] y (off' := k0_off1 i) rfl).trans ?_
  unfold parked
  simp only [View.writes_nil, harg7.read_unread]

/-- One covering store over anything reads back as its payload. -/
theorem read_whole2 {S : Shape} (m : Memref sig .tc .vmem S .f32) (f : m.view.ty.Contents (Elt F)) {off : Fin S.rank → ℕ}
    (h : off = fun _ => 0) (inb : ∀ a, off a + S.size a ≤ S.size a) (w : S.Idx → Elt F .f32) (L : List (View.Piece (Elt F) S .f32)) :
    m.view.read (Elt F) (m.view.writes (Elt F) f ((⟨Rect.unit off S.size inb, w⟩ : View.Piece (Elt F) S .f32) :: L)) = w := by
  rw [View.read_writes_eq_canon _ _ _ (fun y => ⟨_, List.mem_cons_self, View.mem_set_unit_zero h inb y⟩),
    View.canon_cons_unit_zero h inb w L]

set_option maxHeartbeats 1000000 in
/-- The first tile of a sweep: the running minimum is reset to +∞ before the tile is folded in; the outputs are untouched. -/
theorem runFirst (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S1x8x4096 .f32) (harg5 : arg5.IsWhole) (arg6 : Memref sig .tc .vmem S8x512 .f32) (harg6 : arg6.IsWhole) (arg7 : Memref sig .tc .vmem S8x4096 .f32) (harg7 : arg7.IsWhole) (hF : atFirst i) (hL : ¬atLast i)
    (x0 : Vec F S8x512x3 .f32) (x1 : Vec F S8x256x3 .f32) (o2 : Vec F S8x512 .f32) (o3 : Vec F S1x8x4096 .f32)
    (s0 : Vec F S8x512 .f32) (s1 : Vec F S8x4096 .f32) (E : Set ℕ) (K : PUnit → sProp 𝕄) :
    iprop(owns (c : Thread nD τ) arg2 fullShare x0 ∗ owns (c : Thread nD τ) arg3 fullShare x1 ∗ owns (c : Thread nD τ) arg4 fullShare o2 ∗ owns (c : Thread nD τ) arg5 fullShare o3 ∗ owns (c : Thread nD τ) arg6 fullShare s0 ∗ owns (c : Thread nD τ) arg7 fullShare s1
        ∗ (iprop(owns (c : Thread nD τ) arg2 fullShare x0 ∗ owns (c : Thread nD τ) arg3 fullShare x1
            ∗ owns (c : Thread nD τ) arg4 fullShare o2
            ∗ owns (c : Thread nD τ) arg5 fullShare o3
            ∗ owns (c : Thread nD τ) arg6 fullShare (k0_pay1 (k0_pay6 x0 x1 (k0_pay4 (F := F))))
            ∗ owns (c : Thread nD τ) arg7 fullShare (parked i (k0_pay2 (k0_pay5 x0 x1)) s1)) -∗ K ⟨⟩))
      ⊢ wp frame (wpE (defs₀ (F := F)) Variants.none c none) E (cc0__chamfer_kernel i arg2 harg2 arg3 harg3 arg4 harg4 arg5 harg5 arg6 harg6 arg7 harg7) K := by
  simp only [cc0__chamfer_kernel_eq_skeleton]; unfold cc0__chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hfs0; obtain rfl := harg7.eq_unread hfs1
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro; exact harg4.read_unread _
  isplitl [H3]
  · iexists _; isplitr; swap; · iexact H3
    ipureintro; exact harg5.read_unread _
  isplitl [HS0]
  · iexists _; isplitr; swap; · iexact HS0
    ipureintro
    sl_unfold_words
    simp only [View.readAt_eq_ld, harg2.read_unread, harg3.read_unread, harg6.read_unread, View.ld_unit_zero (S := S8x512x3) zeros3, View.ld_unit_zero (S := S8x256x3) zeros3, View.ld_unit_zero (S := S8x512) zeros2, View.ld_unit_zero (S := S8x4096) zeros2, View.readCov_unit_zero (S := S8x512) arg6.view zeros2]
    exact read_whole2 (F := F) arg6 _ zeros2 _ _ _
  · iexists _; isplitr; swap; · iexact HS1
    ipureintro
    sl_unfold_words
    simp only [View.readAt_eq_ld, harg2.read_unread, harg3.read_unread, harg6.read_unread, View.ld_unit_zero (S := S8x512x3) zeros3, View.ld_unit_zero (S := S8x256x3) zeros3, View.ld_unit_zero (S := S8x512) zeros2, View.ld_unit_zero (S := S8x4096) zeros2, View.readCov_unit_zero (S := S8x512) arg6.view zeros2]
    exact read_parked i arg7 harg7 _ s1

set_option maxHeartbeats 1000000 in
/-- A tile inside a sweep: the tile is folded into the running minimum and its column minima parked; the outputs are untouched. -/
theorem runMid (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S1x8x4096 .f32) (harg5 : arg5.IsWhole) (arg6 : Memref sig .tc .vmem S8x512 .f32) (harg6 : arg6.IsWhole) (arg7 : Memref sig .tc .vmem S8x4096 .f32) (harg7 : arg7.IsWhole) (hF : ¬atFirst i) (hL : ¬atLast i)
    (x0 : Vec F S8x512x3 .f32) (x1 : Vec F S8x256x3 .f32) (o2 : Vec F S8x512 .f32) (o3 : Vec F S1x8x4096 .f32)
    (s0 : Vec F S8x512 .f32) (s1 : Vec F S8x4096 .f32) (E : Set ℕ) (K : PUnit → sProp 𝕄) :
    iprop(owns (c : Thread nD τ) arg2 fullShare x0 ∗ owns (c : Thread nD τ) arg3 fullShare x1 ∗ owns (c : Thread nD τ) arg4 fullShare o2 ∗ owns (c : Thread nD τ) arg5 fullShare o3 ∗ owns (c : Thread nD τ) arg6 fullShare s0 ∗ owns (c : Thread nD τ) arg7 fullShare s1
        ∗ (iprop(owns (c : Thread nD τ) arg2 fullShare x0 ∗ owns (c : Thread nD τ) arg3 fullShare x1
            ∗ owns (c : Thread nD τ) arg4 fullShare o2
            ∗ owns (c : Thread nD τ) arg5 fullShare o3
            ∗ owns (c : Thread nD τ) arg6 fullShare (k0_pay1 (k0_pay6 x0 x1 s0))
            ∗ owns (c : Thread nD τ) arg7 fullShare (parked i (k0_pay2 (k0_pay5 x0 x1)) s1)) -∗ K ⟨⟩))
      ⊢ wp frame (wpE (defs₀ (F := F)) Variants.none c none) E (cc0__chamfer_kernel i arg2 harg2 arg3 harg3 arg4 harg4 arg5 harg5 arg6 harg6 arg7 harg7) K := by
  simp only [cc0__chamfer_kernel_eq_skeleton]; unfold cc0__chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hfs0; obtain rfl := harg7.eq_unread hfs1
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro; exact harg4.read_unread _
  isplitl [H3]
  · iexists _; isplitr; swap; · iexact H3
    ipureintro; exact harg5.read_unread _
  isplitl [HS0]
  · iexists _; isplitr; swap; · iexact HS0
    ipureintro
    sl_unfold_words
    simp only [View.readAt_eq_ld, harg2.read_unread, harg3.read_unread, harg6.read_unread, View.ld_unit_zero (S := S8x512x3) zeros3, View.ld_unit_zero (S := S8x256x3) zeros3, View.ld_unit_zero (S := S8x512) zeros2, View.ld_unit_zero (S := S8x4096) zeros2, View.readCov_unit_zero (S := S8x512) arg6.view zeros2]
    exact read_whole2 (F := F) arg6 _ zeros2 _ _ _
  · iexists _; isplitr; swap; · iexact HS1
    ipureintro
    sl_unfold_words
    simp only [View.readAt_eq_ld, harg2.read_unread, harg3.read_unread, harg6.read_unread, View.ld_unit_zero (S := S8x512x3) zeros3, View.ld_unit_zero (S := S8x256x3) zeros3, View.ld_unit_zero (S := S8x512) zeros2, View.ld_unit_zero (S := S8x4096) zeros2, View.readCov_unit_zero (S := S8x512) arg6.view zeros2]
    exact read_parked i arg7 harg7 _ s1

set_option maxHeartbeats 1000000 in
/-- The last tile of a sweep: the tile is folded in, its column minima parked, and both scratch buffers copied out. -/
theorem runLast (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S1x8x4096 .f32) (harg5 : arg5.IsWhole) (arg6 : Memref sig .tc .vmem S8x512 .f32) (harg6 : arg6.IsWhole) (arg7 : Memref sig .tc .vmem S8x4096 .f32) (harg7 : arg7.IsWhole) (hF : ¬atFirst i) (hL : atLast i)
    (x0 : Vec F S8x512x3 .f32) (x1 : Vec F S8x256x3 .f32) (o2 : Vec F S8x512 .f32) (o3 : Vec F S1x8x4096 .f32)
    (s0 : Vec F S8x512 .f32) (s1 : Vec F S8x4096 .f32) (E : Set ℕ) (K : PUnit → sProp 𝕄) :
    iprop(owns (c : Thread nD τ) arg2 fullShare x0 ∗ owns (c : Thread nD τ) arg3 fullShare x1 ∗ owns (c : Thread nD τ) arg4 fullShare o2 ∗ owns (c : Thread nD τ) arg5 fullShare o3 ∗ owns (c : Thread nD τ) arg6 fullShare s0 ∗ owns (c : Thread nD τ) arg7 fullShare s1
        ∗ (iprop(owns (c : Thread nD τ) arg2 fullShare x0 ∗ owns (c : Thread nD τ) arg3 fullShare x1
            ∗ owns (c : Thread nD τ) arg4 fullShare (k0_pay1 (k0_pay6 x0 x1 s0))
            ∗ owns (c : Thread nD τ) arg5 fullShare (k0_pay3 (parked i (k0_pay2 (k0_pay5 x0 x1)) s1))
            ∗ owns (c : Thread nD τ) arg6 fullShare (k0_pay1 (k0_pay6 x0 x1 s0))
            ∗ owns (c : Thread nD τ) arg7 fullShare (parked i (k0_pay2 (k0_pay5 x0 x1)) s1)) -∗ K ⟨⟩))
      ⊢ wp frame (wpE (defs₀ (F := F)) Variants.none c none) E (cc0__chamfer_kernel i arg2 harg2 arg3 harg3 arg4 harg4 arg5 harg5 arg6 harg6 arg7 harg7) K := by
  simp only [cc0__chamfer_kernel_eq_skeleton]; unfold cc0__chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hfs0; obtain rfl := harg7.eq_unread hfs1
  sl_exec (disch := first | exact hF | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    simp only [View.readAt_eq_ld, harg2.read_unread, harg3.read_unread, harg6.read_unread, View.ld_unit_zero (S := S8x512x3) zeros3, View.ld_unit_zero (S := S8x256x3) zeros3, View.ld_unit_zero (S := S8x512) zeros2, View.ld_unit_zero (S := S8x4096) zeros2, View.readCov_unit_zero (S := S8x512) arg6.view zeros2]
    exact read_whole2 (F := F) arg4 _ zeros2 _ _ _
  isplitl [H3]
  · iexists _; isplitr; swap; · iexact H3
    ipureintro
    sl_unfold_words
    simp only [View.readAt_eq_ld, harg2.read_unread, harg3.read_unread, harg6.read_unread, View.ld_unit_zero (S := S8x512x3) zeros3, View.ld_unit_zero (S := S8x256x3) zeros3, View.ld_unit_zero (S := S8x512) zeros2, View.ld_unit_zero (S := S8x4096) zeros2, View.readCov_unit_zero (S := S8x512) arg6.view zeros2]
    exact (read_whole2 (F := F) arg5 _ zeros3 _ _ _).trans (congrArg k0_pay3 (read_parked i arg7 harg7 _ s1))
  isplitl [HS0]
  · iexists _; isplitr; swap; · iexact HS0
    ipureintro
    sl_unfold_words
    simp only [View.readAt_eq_ld, harg2.read_unread, harg3.read_unread, harg6.read_unread, View.ld_unit_zero (S := S8x512x3) zeros3, View.ld_unit_zero (S := S8x256x3) zeros3, View.ld_unit_zero (S := S8x512) zeros2, View.ld_unit_zero (S := S8x4096) zeros2, View.readCov_unit_zero (S := S8x512) arg6.view zeros2]
    exact read_whole2 (F := F) arg6 _ zeros2 _ _ _
  · iexists _; isplitr; swap; · iexact HS1
    ipureintro
    sl_unfold_words
    simp only [View.readAt_eq_ld, harg2.read_unread, harg3.read_unread, harg6.read_unread, View.ld_unit_zero (S := S8x512x3) zeros3, View.ld_unit_zero (S := S8x256x3) zeros3, View.ld_unit_zero (S := S8x512) zeros2, View.ld_unit_zero (S := S8x4096) zeros2, View.readCov_unit_zero (S := S8x512) arg6.view zeros2]
    exact read_parked i arg7 harg7 _ s1

end Cert.KernelIdeal.Body

end
-- ==== Proof.KIData.lean ====
/-
  What the two scratch buffers and the two output blocks of the distance kernel hold point by point, and the
  pipeline's proof data stated over it.

  Point `t` works on tile `t / 16` of the first cloud and tile `t % 16` of the second.  The first scratch carries the
  running row minimum of the sweep: reset at `t % 16 = 0`, folded at every point (`accAt`, by recursion on the point).
  The second scratch is filled one slice per point: after point `t` its columns below `256 · (t % 16 + 1)` hold the
  column minima of the tiles of the current sweep met so far (`Filled`), whatever it held before the region; so at
  the last point of a sweep all of it is determined (`parkedAll`).  At that point both are copied to the outputs.
-/
import proofs.«151664_j2602750181383_2_alg».proof.Proof.KIRuns
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem N_eq : cfg0.N = 128 := N_0

/-- The running row minimum after point `n`: the point's tile folded into +∞ at the first point of a sweep, into what
    the point before left otherwise. -/
def accAt (c : Dev nD) : (n : ℕ) → n < cfg0.N → Vec F S8x512 .f32
  | 0, hn => k0_pay1 (k0_pay6 (iblk m c 0 ⟨0, hn⟩) (iblk m c 1 ⟨0, hn⟩) (k0_pay4 (F := F)))
  | n + 1, hn =>
    if (n + 1) % 16 = 0 then k0_pay1 (k0_pay6 (iblk m c 0 ⟨n + 1, hn⟩) (iblk m c 1 ⟨n + 1, hn⟩) (k0_pay4 (F := F)))
    else k0_pay1 (k0_pay6 (iblk m c 0 ⟨n + 1, hn⟩) (iblk m c 1 ⟨n + 1, hn⟩) (accAt c n (Nat.lt_of_succ_lt hn)))

theorem accAt_first (c : Dev nD) (t : Fin cfg0.N) (h : t.val % 16 = 0) :
    accAt m c t.val t.isLt = k0_pay1 (k0_pay6 (iblk m c 0 t) (iblk m c 1 t) (k0_pay4 (F := F))) := by
  obtain ⟨n, hn⟩ := t
  cases n with
  | zero => rfl
  | succ n => exact if_pos h

theorem accAt_next (c : Dev nD) (t : Fin cfg0.N) (h : ¬t.val % 16 = 0) :
    accAt m c t.val t.isLt = k0_pay1 (k0_pay6 (iblk m c 0 t) (iblk m c 1 t)
      (accAt m c (t.val - 1) (Nat.lt_of_le_of_lt (Nat.sub_le _ _) t.isLt))) := by
  obtain ⟨n, hn⟩ := t
  cases n with
  | zero => exact absurd (Nat.zero_mod _) h
  | succ n => exact if_neg h

/-- The column minima of the tile pair at point `t`. -/
def colMin (c : Dev nD) (t : Fin cfg0.N) : FVec F S8x256 .f32 := k0_pay2 (k0_pay5 (iblk m c 0 t) (iblk m c 1 t))

/-- The grid point numbered `n` (taken modulo the grid's 128 points, so that no bound is carried). -/
def pt (n : ℕ) : Fin cfg0.N := ⟨n % 128, by rw [N_eq]; exact Nat.mod_lt _ (by norm_num)⟩

theorem pt_val (t : Fin cfg0.N) : pt t.val = t :=
  Fin.ext (Nat.mod_eq_of_lt (lt_of_lt_of_eq t.isLt N_eq))

/-- The second scratch once sweep `p` is complete: column `y₁` holds the column minimum of the tile pair
    `(p, y₁ / 256)` at its local column `y₁ % 256`. -/
def parkedAll (c : Dev nD) (p : ℕ) : Vec F S8x4096 .f32 := fun y =>
  colMin m c (pt (16 * p + (y 1).val / 256)) (ix2 (y 0) ⟨(y 1).val % 256, Nat.mod_lt _ (by norm_num)⟩)

/-- After point `t` the second scratch agrees with the completed sweep on the columns filled so far. -/
def Filled (c : Dev nD) (t : Fin cfg0.N) (d : Vec F S8x4096 .f32) : Prop :=
  ∀ y : S8x4096.Idx, (y 1).val < 256 * (t.val % 16 + 1) → d y = parkedAll m c (t.val / 16) y

/-- One point's store keeps the agreement: the new slice is the point's own tile, the columns before it were filled
    by the earlier points of the same sweep. -/
theorem filled_step (c : Dev nD) (t : Fin cfg0.N) (d : Vec F S8x4096 .f32)
    (hprev : ¬t.val % 16 = 0 → ∀ y : S8x4096.Idx, (y 1).val < 256 * (t.val % 16) → d y = parkedAll m c (t.val / 16) y) :
    Filled m c t (parked (grid0.coords t) (colMin m c t) d) := by
  intro y hy
  have hy0 : (y 0).val < 8 := (y 0).isLt
  have hy1 : (y 1).val < 4096 := (y 1).isLt
  unfold parked
  by_cases h : ∀ a, k0_off1 (grid0.coords t) a ≤ (y a).val ∧ (y a).val < k0_off1 (grid0.coords t) a + S8x256.size a
  · rw [dif_pos h]
    have h1 := h 1
    rw [off_eq t] at h1
    have h1' : 256 * (t.val % 16) ≤ (y 1).val ∧ (y 1).val < 256 * (t.val % 16) + 256 := h1
    have hq : (y 1).val / 256 = t.val % 16 := by omega
    unfold parkedAll
    have hpt : pt (16 * (t.val / 16) + (y 1).val / 256) = t := by
      rw [hq, show 16 * (t.val / 16) + t.val % 16 = t.val from Nat.div_add_mod _ _]; exact pt_val t
    rw [hpt]
    refine congrArg (colMin m c t) ?_
    funext a
    refine Fin.ext ?_
    match a with
    | ⟨0, _⟩ =>
      show (y 0).val - k0_off1 (grid0.coords t) 0 = (y 0).val
      rw [off_eq t]; exact Nat.sub_zero _
    | ⟨1, _⟩ =>
      show (y 1).val - k0_off1 (grid0.coords t) 1 = (y 1).val % 256
      rw [off_eq t]
      show (y 1).val - 256 * (t.val % 16) = (y 1).val % 256
      omega
  · rw [dif_neg h]
    have hlt : (y 1).val < 256 * (t.val % 16) := by
      by_contra hge
      refine h fun a => ?_
      rw [off_eq t]
      match a with
      | ⟨0, _⟩ => exact ⟨Nat.zero_le _, by show (y 0).val < 0 + 8; omega⟩
      | ⟨1, _⟩ => exact ⟨by show 256 * (t.val % 16) ≤ (y 1).val; omega, by show (y 1).val < 256 * (t.val % 16) + 256; omega⟩
    have hne : ¬t.val % 16 = 0 := by intro h0; rw [h0] at hlt; omega
    exact hprev hne y hlt

/-- What the point before left, restated for the next point of the same sweep. -/
theorem filled_prev (c : Dev nD) (t : Fin cfg0.N) (d : Vec F S8x4096 .f32) (hz : t.val ≠ 0)
    (hd : Filled m c ⟨t.val - 1, Nat.lt_of_le_of_lt (Nat.sub_le _ _) t.isLt⟩ d) :
    ¬t.val % 16 = 0 → ∀ y : S8x4096.Idx, (y 1).val < 256 * (t.val % 16) → d y = parkedAll m c (t.val / 16) y := by
  intro hne y hy
  have e1 : (t.val - 1) % 16 + 1 = t.val % 16 := by omega
  have e2 : (t.val - 1) / 16 = t.val / 16 := by omega
  have := hd y (by show (y 1).val < 256 * ((t.val - 1) % 16 + 1); rw [e1]; exact hy)
  rw [show (⟨t.val - 1, Nat.lt_of_le_of_lt (Nat.sub_le _ _) t.isLt⟩ : Fin cfg0.N).val / 16 = t.val / 16 from e2] at this
  exact this

/-- At the last point of a sweep the agreement is on every column. -/
theorem filled_last (c : Dev nD) (t : Fin cfg0.N) (d : Vec F S8x4096 .f32) (hl : t.val % 16 = 15) (hd : Filled m c t d) :
    d = parkedAll m c (t.val / 16) :=
  funext fun y => hd y (by have : (y 1).val < 4096 := (y 1).isLt; rw [hl]; omega)

/-! ## The region invariant -/

/-- The launch invariant with the two scratch buffers as memrefs owned at some contents. -/
theorem PhiA_eq (c : Dev nD) :
    (Pipeline.ΦA spec0 c : sProp 𝕄)
      = iprop(iprop((∃ d, owns (c : Thread nD τ) mAcc fullShare d) ∗ (∃ d, owns (c : Thread nD τ) mPark fullShare d)) ∗ (∃ r, prngReg c r)) := by
  unfold Pipeline.ΦA; rw [scopedRest0_eq]; simp only [mAcc, mPark, owns_whole]; try rfl

/-- Before point `n`: at the region's entry the launch invariant; afterwards the first scratch at the running
    minimum the point before left, the second at contents that agree with the sweep so far, the generator register at
    some state. -/
def Phi (c : Dev nD) : (n : ℕ) → n ≤ cfg0.N → sProp 𝕄
  | 0, _ => Pipeline.ΦA spec0 c
  | n + 1, hn => iprop(iprop(owns (c : Thread nD τ) mAcc fullShare (accAt m c n hn)
      ∗ (∃ d, ⌜Filled m c ⟨n, hn⟩ d⌝ ∗ owns (c : Thread nD τ) mPark fullShare d)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) mAcc fullShare (accAt m c n hn)
      ∗ (∃ d, ⌜Filled m c ⟨n, hn⟩ d⌝ ∗ owns (c : Thread nD τ) mPark fullShare d)) ∗ (∃ r, prngReg c r)) := rfl

theorem Phi_pos (c : Dev nD) (n : ℕ) (h : n ≤ cfg0.N) (hz : n ≠ 0) :
    Phi m c n h = iprop(iprop(owns (c : Thread nD τ) mAcc fullShare (accAt m c (n - 1) (by omega))
      ∗ (∃ d, ⌜Filled m c ⟨n - 1, by omega⟩ d⌝ ∗ owns (c : Thread nD τ) mPark fullShare d)) ∗ (∃ r, prngReg c r)) := by
  cases n with
  | zero => exact absurd rfl hz
  | succ n => rfl

/-! ## The proof data -/

/-- The proof data of the pipeline on core `c`: the arrays as the region finds them; after the body at point `t` each
    input's buffer at its block, the first output's at the running minimum, the second's at the completed sweep's
    column minima (both read only at the last point of a sweep, where the body stores them); nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
    | ⟨3, _⟩ => k0_pay3 (parkedAll m c (t.val / 16))
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = accAt m c t.val t.isLt := by dsimp only [dats]
theorem after_3 (c : Dev nD) (t : Fin cfg0.N) : (dats m 0 c).after 3 t = k0_pay3 (parkedAll m c (t.val / 16)) := by dsimp only [dats]

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

end Cert.KernelIdeal.Body

end
-- ==== Proof.KIBody.lean ====
/-
  The body obligation of the distance kernel against the proof data, the frame run, and the frame.

  At every point the invariant hands the body the two scratch buffers — at anything before the first point of the
  region, afterwards at the running minimum and at contents agreeing with the current sweep so far —, the body's case
  is read off the point's position in its sweep, the case's run applies, and the invariant takes the scratch buffers
  back one point further.  The output buffers are handed back as found except at the last point of a sweep, where they
  receive the two scratch buffers' contents.
-/
import proofs.«151664_j2602750181383_2_alg».proof.Proof.KIData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem noflush2 (t : Fin cfg0.N) (h1 : ¬t.val % 16 = 15) : (cfg0.win 2).flush t = false := by
  cases hfl : (cfg0.win 2).flush t with
  | false => rfl
  | true => exact absurd ((flush0_2 t).mp hfl) h1
theorem noflush3 (t : Fin cfg0.N) (h1 : ¬t.val % 16 = 15) : (cfg0.win 3).flush t = false := by
  cases hfl : (cfg0.win 3).flush t with
  | false => rfl
  | true => exact absurd ((flush0_3 t).mp hfl) h1
theorem busy2 (t : Fin cfg0.N) (h1 : t.val % 16 = 15) : cfg0.idle 2 (grid0.coords t) = false := by
  cases hi : cfg0.idle 2 (grid0.coords t) with
  | false => rfl
  | true => exact absurd h1 ((idle2_iff t).mp hi)
theorem busy3 (t : Fin cfg0.N) (h1 : t.val % 16 = 15) : cfg0.idle 3 (grid0.coords t) = false := by
  cases hi : cfg0.idle 3 (grid0.coords t) with
  | false => rfl
  | true => exact absurd h1 ((idle3_iff t).mp hi)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mIn0 t) fullShare ((dats m 0 c).before 0 t d))
    ∗ (∃ d, owns (c : Thread nD τ) (mIn1 t) fullShare ((dats m 0 c).before 1 t d))
    ∗ (∃ d, owns (c : Thread nD τ) (mOut2 t) fullShare ((dats m 0 c).before 2 t d))
    ∗ (∃ d, owns (c : Thread nD τ) (mOut3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (mIn0 t) fullShare ((dats m 0 c).after 0 t) from by
    unfold Dat.leavesExact; rw [live0 t], after_0]
  rw [show (dats m 0 c).leavesExact 1 t = owns (c : Thread nD τ) (mIn1 t) fullShare ((dats m 0 c).after 1 t) from by
    unfold Dat.leavesExact; rw [live1 t], after_1]
  have hN : t.val < 128 := lt_of_lt_of_eq t.isLt N_eq
  by_cases h1 : t.val % 16 = 15
  · -- the last point of a sweep
    have h0 : ¬t.val % 16 = 0 := by omega
    have hz : t.val ≠ 0 := by omega
    rw [show (dats m 0 c).leavesExact 2 t = owns (c : Thread nD τ) (mOut2 t) fullShare ((dats m 0 c).after 2 t) from by
      unfold Dat.leavesExact; rw [busy2 t h1], after_2]
    rw [show (dats m 0 c).leavesExact 3 t = owns (c : Thread nD τ) (mOut3 t) fullShare ((dats m 0 c).after 3 t) from by
      unfold Dat.leavesExact; rw [busy3 t h1], after_3]
    rw [accAt_next m c t h0, Phi_castSucc m c t, Phi_pos m c _ _ hz]
    iintro ⟨⟨⟨HS0, ⟨%dp, %hdp, HS1⟩⟩, Hg⟩, Ho, ⟨%d0, H0⟩, ⟨%d1, H1⟩, ⟨%d2, H2⟩, ⟨%d3, H3⟩⟩
    have hfill := filled_step m c t dp (filled_prev m c t dp hz hdp)
    have hall : parked (grid0.coords t) (colMin m c t) dp = parkedAll m c (t.val / 16) := filled_last m c t _ h1 hfill
    unfold colMin at hall
    iapply (runLast c (grid0.coords t) _ _ _ _ _ _ _ _ _ _ _ _ (fun h => h0 ((atFirst_iff t).mp h)) ((atLast_iff t).mpr h1) (iblk m c 0 t) (iblk m c 1 t) _ _ _ dp Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    rw [hall]
    isplitl [HS0 HS1 Hg]
    · isplitl [HS0 HS1]
      · isplitl [HS0]; · iexact HS0
        iexists _; isplitr; swap; · iexact HS1
        ipureintro; rw [← hall]; exact hfill
      iexact Hg
    isplitl [Ho]; · iexact Ho
    isplitl [H0]; · iexact H0
    isplitl [H1]; · iexact H1
    isplitl [H2]; · iexact H2
    iexact H3
  · rw [Dat.leavesExact_idle (dats m 0 c) 2 t ((idle2_iff t).mpr h1) (noflush2 t h1),
      Dat.leavesExact_idle (dats m 0 c) 3 t ((idle3_iff t).mpr h1) (noflush3 t h1)]
    by_cases h0 : t.val % 16 = 0
    · -- the first point of a sweep
      rw [accAt_first m c t h0]
      by_cases hz : t.val = 0
      · rw [Phi_castSucc m c t, Phi_zero m c _ _ hz, PhiA_eq]
        iintro ⟨⟨⟨⟨%e0, HS0⟩, ⟨%dp, HS1⟩⟩, Hg⟩, Ho, ⟨%d0, H0⟩, ⟨%d1, H1⟩, ⟨%d2, H2⟩, ⟨%d3, H3⟩⟩
        iapply (runFirst c (grid0.coords t) _ _ _ _ _ _ _ _ _ _ _ _ ((atFirst_iff t).mpr h0) (fun h => h1 ((atLast_iff t).mp h)) (iblk m c 0 t) (iblk m c 1 t) _ _ e0 dp Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexists _; isplitr; swap; · iexact HS1
            ipureintro; exact filled_step m c t _ (fun hne => absurd h0 hne)
          iexact Hg
        isplitl [Ho]; · iexact Ho
        isplitl [H0]; · iexact H0
        isplitl [H1]; · iexact H1
        isplitl [H2]; · iexists _; iexact H2
        iexists _; iexact H3
      · rw [Phi_castSucc m c t, Phi_pos m c _ _ hz]
        iintro ⟨⟨⟨HS0, ⟨%dp, %hdp, HS1⟩⟩, Hg⟩, Ho, ⟨%d0, H0⟩, ⟨%d1, H1⟩, ⟨%d2, H2⟩, ⟨%d3, H3⟩⟩
        iapply (runFirst c (grid0.coords t) _ _ _ _ _ _ _ _ _ _ _ _ ((atFirst_iff t).mpr h0) (fun h => h1 ((atLast_iff t).mp h)) (iblk m c 0 t) (iblk m c 1 t) _ _ _ dp Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexists _; isplitr; swap; · iexact HS1
            ipureintro; exact filled_step m c t _ (fun hne => absurd h0 hne)
          iexact Hg
        isplitl [Ho]; · iexact Ho
        isplitl [H0]; · iexact H0
        isplitl [H1]; · iexact H1
        isplitl [H2]; · iexists _; iexact H2
        iexists _; iexact H3
    · -- a point inside a sweep
      have hz : t.val ≠ 0 := by intro hz; rw [hz] at h0; exact h0 (Nat.zero_mod _)
      rw [accAt_next m c t h0, Phi_castSucc m c t, Phi_pos m c _ _ hz]
      iintro ⟨⟨⟨HS0, ⟨%dp, %hdp, HS1⟩⟩, Hg⟩, Ho, ⟨%d0, H0⟩, ⟨%d1, H1⟩, ⟨%d2, H2⟩, ⟨%d3, H3⟩⟩
      iapply (runMid c (grid0.coords t) _ _ _ _ _ _ _ _ _ _ _ _ (fun h => h0 ((atFirst_iff t).mp h)) (fun h => h1 ((atLast_iff t).mp h)) (iblk m c 0 t) (iblk m c 1 t) _ _ _ dp Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]; · iexact HS0
          iexists _; isplitr; swap; · iexact HS1
          ipureintro; exact filled_step m c t _ (filled_prev m c t dp hz hdp)
        iexact Hg
      isplitl [Ho]; · iexact Ho
      isplitl [H0]; · iexact H0
      isplitl [H1]; · iexact H1
      isplitl [H2]; · iexists _; iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives the launch invariant back: the scratch contents are forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last, N_eq]; norm_num), PhiA_eq]
  iintro ⟨⟨HS0, ⟨%d, -, HS1⟩⟩, Hg⟩
  isplitl [HS0 HS1]
  · isplitl [HS0]
    · iexists _; iexact HS0
    iexists _; iexact HS1
  iexact Hg

set_option backward.isDefEq.respectTransparency.types false in
/-- Every weakly fair execution of @main terminates; every array of the pipeline ends at what the library computes from
    the proof data, and every other unscoped buffer at what the host lines after the region compute from them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c w => by unfold Dat.share; split <;> rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KIBlocks.lean ====
/-
  Where each window's block sits in its array, decided once over the grid: at point `t` the first cloud's tile is rows
  `512 · (t / 16) …` of the point axis, the second cloud's tile rows `256 · (t % 16) …`; the first output's block is
  columns `512 · (t / 16) …` of an 8 × 4096 array, the second output's block is slab `t / 16` of an 8 × 8 × 4096 array.
  The output blocks written back (at the last point of each sweep) cover their arrays.
-/
import proofs.«151664_j2602750181383_2_alg».proof.Proof.KIData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The printed index maps in closed form. -/
theorem idx_facts : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0
    ∧ win0_2.index t (0 : Fin 2) = 0 ∧ win0_2.index t (1 : Fin 2) = t.val / 16
    ∧ win0_3.index t (0 : Fin 3) = t.val / 16 ∧ win0_3.index t (1 : Fin 3) = 0 ∧ win0_3.index t (2 : Fin 3) = 0 :=
  (by decide +kernel : ∀ t : Fin grid0.N, _)

theorem lt128 (t : Fin cfg0.N) : t.val < 128 := lt_of_lt_of_eq t.isLt N_eq

/-- The tile of the first cloud point `t` works on, and the rows and columns of its tiles in the whole arrays. -/
def tileOf (t : Fin cfg0.N) : Fin 8 := ⟨t.val / 16, by have := lt128 t; omega⟩
def rowOf (t : Fin cfg0.N) (r : Fin 512) : Fin 4096 := ⟨512 * (t.val / 16) + r.val, by have := lt128 t; have := r.isLt; omega⟩
def colOf (t : Fin cfg0.N) (j : Fin 256) : Fin 4096 := ⟨256 * (t.val % 16) + j.val, by have := j.isLt; omega⟩

theorem emb0 (t : Fin cfg0.N) (b : Fin 8) (r : Fin 512) (d : Fin 3) :
    (((cfg0.win 0).blk t).view.emb (ix3 b r d) : S8x4096x3.Idx) = ix3 b (rowOf t r) d := by
  obtain ⟨e0, e1, e2, -⟩ := idx_facts t
  funext a; apply Fin.ext
  match a with
  | ⟨0, _⟩ => show win0_0.index t (0 : Fin 3) * 8 + 1 * b.val = b.val; omega
  | ⟨1, _⟩ => show win0_0.index t (1 : Fin 3) * 512 + 1 * r.val = 512 * (t.val / 16) + r.val; omega
  | ⟨2, _⟩ => show win0_0.index t (2 : Fin 3) * 3 + 1 * d.val = d.val; omega

theorem emb1 (t : Fin cfg0.N) (b : Fin 8) (j : Fin 256) (d : Fin 3) :
    (((cfg0.win 1).blk t).view.emb (ix3 b j d) : S8x4096x3.Idx) = ix3 b (colOf t j) d := by
  obtain ⟨-, -, -, e0, e1, e2, -⟩ := idx_facts t
  funext a; apply Fin.ext
  match a with
  | ⟨0, _⟩ => show win0_1.index t (0 : Fin 3) * 8 + 1 * b.val = b.val; omega
  | ⟨1, _⟩ => show win0_1.index t (1 : Fin 3) * 256 + 1 * j.val = 256 * (t.val % 16) + j.val; omega
  | ⟨2, _⟩ => show win0_1.index t (2 : Fin 3) * 3 + 1 * d.val = d.val; omega

theorem emb2 (t : Fin cfg0.N) (b : Fin 8) (r : Fin 512) :
    (((cfg0.win 2).blk t).view.emb (ix2 b r) : S8x4096.Idx) = ix2 b (rowOf t r) := by
  obtain ⟨-, -, -, -, -, -, e0, e1, -⟩ := idx_facts t
  funext a; apply Fin.ext
  match a with
  | ⟨0, _⟩ => show win0_2.index t (0 : Fin 2) * 8 + 1 * b.val = b.val; omega
  | ⟨1, _⟩ => show win0_2.index t (1 : Fin 2) * 512 + 1 * r.val = 512 * (t.val / 16) + r.val; omega

theorem emb3 (t : Fin cfg0.N) (z : Fin 1) (b : Fin 8) (col : Fin 4096) :
    (((cfg0.win 3).blk t).view.emb (ix3 z b col) : S8x8x4096.Idx) = ix3 (tileOf t) b col := by
  obtain ⟨-, -, -, -, -, -, -, -, e0, e1, e2⟩ := idx_facts t
  have hz : z.val = 0 := by have := z.isLt; omega
  funext a; apply Fin.ext
  match a with
  | ⟨0, _⟩ => show win0_3.index t (0 : Fin 3) * 1 + 1 * z.val = t.val / 16; omega
  | ⟨1, _⟩ => show win0_3.index t (1 : Fin 3) * 8 + 1 * b.val = b.val; omega
  | ⟨2, _⟩ => show win0_3.index t (2 : Fin 3) * 4096 + 1 * col.val = col.val; omega

/-- The first cloud's tile at point `t`, read at an index, is the array's entry at the tile's row. -/
theorem iblk0_apply (c : Dev nD) (t : Fin cfg0.N) (b : Fin 8) (r : Fin 512) (d : Fin 3) :
    (iblk m c 0 t : Vec F S8x512x3 .f32) (ix3 b r d) = V m c main_arg1 (ix3 b (rowOf t r) d) := by
  show V m c main_arg1 (((cfg0.win 0).blk t).view.emb (ix3 b r d)) = _
  rw [emb0]

/-- The second cloud's tile at point `t`, read at an index. -/
theorem iblk1_apply (c : Dev nD) (t : Fin cfg0.N) (b : Fin 8) (j : Fin 256) (d : Fin 3) :
    (iblk m c 1 t : Vec F S8x256x3 .f32) (ix3 b j d) = V m c main_arg0 (ix3 b (colOf t j) d) := by
  show V m c main_arg0 (((cfg0.win 1).blk t).view.emb (ix3 b j d)) = _
  rw [emb1]

theorem mem_blk2 (t : Fin cfg0.N) (i : S8x4096.Idx) :
    i ∈ ((cfg0.win 2).blk t).view.set ↔ ∀ a : Fin 2, win0_2.index t a * S8x512.size a ≤ (i a).val ∧ (i a).val < win0_2.index t a * S8x512.size a + S8x512.size a := by
  show i ∈ ((View.whole main_v0_0).slice (win0_2.rect t)).set ↔ _
  rw [View.set_slice_whole, Rect.mem_set_unit]
  exact Iff.rfl

theorem mem_blk3 (t : Fin cfg0.N) (i : S8x8x4096.Idx) :
    i ∈ ((cfg0.win 3).blk t).view.set ↔ ∀ a : Fin 3, win0_3.index t a * S1x8x4096.size a ≤ (i a).val ∧ (i a).val < win0_3.index t a * S1x8x4096.size a + S1x8x4096.size a := by
  show i ∈ ((View.whole main_v0_1).slice (win0_3.rect t)).set ↔ _
  rw [View.set_slice_whole, Rect.mem_set_unit]
  exact Iff.rfl

theorem pt_val' (n : ℕ) (h : n < 128) : (pt n).val = n := Nat.mod_eq_of_lt h

/-- Every entry of the first output lies in the block written back at the last point of its tile's sweep. -/
theorem cover2 (i : S8x4096.Idx) : ∃ t : Fin cfg0.N, (cfg0.win 2).flush t = true ∧ i ∈ ((cfg0.win 2).blk t).view.set := by
  have hi0 : (i 0).val < 8 := (i 0).isLt
  have hi1 : (i 1).val < 4096 := (i 1).isLt
  have hv : (pt (16 * ((i 1).val / 512) + 15)).val = 16 * ((i 1).val / 512) + 15 := pt_val' _ (by omega)
  refine ⟨pt (16 * ((i 1).val / 512) + 15), (flush0_2 _).mpr (by rw [hv]; omega), ?_⟩
  obtain ⟨-, -, -, -, -, -, e0, e1, -⟩ := idx_facts (pt (16 * ((i 1).val / 512) + 15))
  rw [hv] at e1
  rw [mem_blk2]
  intro a
  match a with
  | ⟨0, _⟩ => show win0_2.index _ (0 : Fin 2) * 8 ≤ (i 0).val ∧ (i 0).val < win0_2.index _ (0 : Fin 2) * 8 + 8; omega
  | ⟨1, _⟩ => show win0_2.index _ (1 : Fin 2) * 512 ≤ (i 1).val ∧ (i 1).val < win0_2.index _ (1 : Fin 2) * 512 + 512; omega

/-- And every entry of the second output in the slab written back at the last point of its sweep. -/
theorem cover3 (i : S8x8x4096.Idx) : ∃ t : Fin cfg0.N, (cfg0.win 3).flush t = true ∧ i ∈ ((cfg0.win 3).blk t).view.set := by
  have hi0 : (i 0).val < 8 := (i 0).isLt
  have hi1 : (i 1).val < 8 := (i 1).isLt
  have hi2 : (i 2).val < 4096 := (i 2).isLt
  have hv : (pt (16 * (i 0).val + 15)).val = 16 * (i 0).val + 15 := pt_val' _ (by omega)
  refine ⟨pt (16 * (i 0).val + 15), (flush0_3 _).mpr (by rw [hv]; omega), ?_⟩
  obtain ⟨-, -, -, -, -, -, -, -, e0, e1, e2⟩ := idx_facts (pt (16 * (i 0).val + 15))
  rw [hv] at e0
  rw [mem_blk3]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 8 ≤ (i 1).val ∧ (i 1).val < win0_3.index _ (1 : Fin 3) * 8 + 8; omega
  | ⟨2, _⟩ => show win0_3.index _ (2 : Fin 3) * 4096 ≤ (i 2).val ∧ (i 2).val < win0_3.index _ (2 : Fin 3) * 4096 + 4096; omega

end Cert.KernelIdeal.Body

end
-- ==== Proof.Tiles.lean ====
/-
  Infima over a range of points, taken in tiles and taken step by step.

  The infimum of a family over n·m consecutive indices is the infimum, over the n tiles of m, of each tile's infimum.
  A running minimum that starts at min ⊤ (h 0) and takes min with h (k+1) at each step holds, after step k, the infimum
  of h over the indices up to k; after the last step, the infimum of all of h.  A fold of min from ⊤ is the infimum.
-/
import Mathlib.Data.EReal.Basic
import Mathlib.Data.Finset.Lattice.Fold
import Mathlib.Data.Fintype.Basic
import Mathlib.Tactic.Ring

noncomputable section

namespace Cert.Chamfer

/-- A fold of `min` from ⊤ is the infimum. -/
theorem fold_min_top_eq_inf {ι : Type} (s : Finset ι) (f : ι → EReal) : s.fold min ⊤ f = s.inf f := by
  induction s using Finset.cons_induction with
  | empty => rfl
  | cons a s ha ih => rw [Finset.fold_cons, Finset.inf_cons, ih]

/-- The position of entry `j` of tile `t` among `n` tiles of `m`. -/
theorem tile_lt {n m : Nat} (t : Fin n) (j : Fin m) : m * t.val + j.val < n * m := by
  have ht := t.isLt
  have hj := j.isLt
  calc m * t.val + j.val < m * t.val + m := by omega
    _ = (t.val + 1) * m := by ring
    _ ≤ n * m := Nat.mul_le_mul_right m (by omega)

/-- An infimum over n·m indices is the infimum over the tiles of the tiles' infima. -/
theorem inf_tiles {n m : Nat} (f : Fin (n * m) → EReal) :
    Finset.univ.inf f
      = Finset.univ.inf fun t : Fin n => Finset.univ.inf fun j : Fin m => f ⟨m * t.val + j.val, tile_lt t j⟩ := by
  apply le_antisymm
  · refine Finset.le_inf fun t _ => Finset.le_inf fun j _ => Finset.inf_le (Finset.mem_univ _)
  · refine Finset.le_inf fun i _ => ?_
    have hi : i.val < n * m := i.isLt
    have h0 : 0 < n * m := Nat.zero_lt_of_lt hi
    have hm : 0 < m := by
      rcases Nat.eq_zero_or_pos m with h | h
      · rw [h, Nat.mul_zero] at h0; exact absurd h0 (Nat.lt_irrefl 0)
      · exact h
    have ht : i.val / m < n := Nat.div_lt_of_lt_mul (lt_of_lt_of_eq hi (Nat.mul_comm n m))
    have hj : i.val % m < m := Nat.mod_lt _ hm
    have e : (⟨m * (⟨i.val / m, ht⟩ : Fin n).val + (⟨i.val % m, hj⟩ : Fin m).val, tile_lt _ _⟩ : Fin (n * m)) = i :=
      Fin.ext (by show m * (i.val / m) + i.val % m = i.val; exact Nat.div_add_mod _ _)
    calc (Finset.univ.inf fun t : Fin n => Finset.univ.inf fun j : Fin m => f ⟨m * t.val + j.val, tile_lt t j⟩)
        ≤ Finset.univ.inf fun j : Fin m => f ⟨m * (⟨i.val / m, ht⟩ : Fin n).val + j.val, tile_lt _ j⟩ :=
          Finset.inf_le (f := fun t : Fin n => Finset.univ.inf fun j : Fin m => f ⟨m * t.val + j.val, tile_lt t j⟩)
            (Finset.mem_univ (⟨i.val / m, ht⟩ : Fin n))
      _ ≤ f ⟨m * (⟨i.val / m, ht⟩ : Fin n).val + (⟨i.val % m, hj⟩ : Fin m).val, tile_lt _ _⟩ :=
          Finset.inf_le (f := fun j : Fin m => f ⟨m * (⟨i.val / m, ht⟩ : Fin n).val + j.val, tile_lt _ j⟩)
            (Finset.mem_univ (⟨i.val % m, hj⟩ : Fin m))
      _ = f i := by rw [e]

/-- 4096 points as 16 tiles of 256. -/
theorem inf_tiles16 (f : Fin 4096 → EReal) :
    Finset.univ.inf f
      = Finset.univ.inf fun a : Fin 16 => Finset.univ.inf fun j : Fin 256 =>
          f ⟨256 * a.val + j.val, tile_lt (n := 16) (m := 256) a j⟩ :=
  inf_tiles (n := 16) (m := 256) f

/-- 4096 points as 8 tiles of 512. -/
theorem inf_tiles8 (g : Fin 4096 → EReal) :
    Finset.univ.inf g
      = Finset.univ.inf fun a : Fin 8 => Finset.univ.inf fun r : Fin 512 =>
          g ⟨512 * a.val + r.val, tile_lt (n := 8) (m := 512) a r⟩ :=
  inf_tiles (n := 8) (m := 512) g

/-- A running minimum over `n` steps holds, after step `k`, the infimum over the steps up to `k`. -/
theorem running_min {n : Nat} (h : Fin n → EReal) (run : ℕ → EReal) (hn : 0 < n)
    (h0 : run 0 = min ⊤ (h ⟨0, hn⟩))
    (hs : ∀ k (hk : k + 1 < n), run (k + 1) = min (run k) (h ⟨k + 1, hk⟩)) :
    ∀ k (hk : k < n), run k = (Finset.univ.filter fun a : Fin n => a.val ≤ k).inf h := by
  intro k
  induction k with
  | zero =>
    intro _
    rw [h0, min_eq_right le_top]
    apply le_antisymm
    · refine Finset.le_inf fun a ha => ?_
      have ha0 : a.val ≤ 0 := (Finset.mem_filter.1 ha).2
      have : a = ⟨0, hn⟩ := Fin.ext (Nat.le_zero.1 ha0)
      rw [this]
    · exact Finset.inf_le (Finset.mem_filter.2 ⟨Finset.mem_univ _, Nat.le_refl 0⟩)
  | succ k ih =>
    intro hk
    rw [hs k hk, ih (Nat.lt_of_succ_lt hk)]
    apply le_antisymm
    · refine Finset.le_inf fun a ha => ?_
      have hak : a.val ≤ k + 1 := (Finset.mem_filter.1 ha).2
      rcases Nat.lt_or_ge a.val (k + 1) with hlt | hge
      · exact (min_le_left _ _).trans
          (Finset.inf_le (Finset.mem_filter.2 ⟨Finset.mem_univ _, Nat.le_of_lt_succ hlt⟩))
      · have : a = ⟨k + 1, hk⟩ := Fin.ext (Nat.le_antisymm hak hge)
        rw [this]; exact min_le_right _ _
    · refine le_min ?_ ?_
      · refine Finset.le_inf fun a ha => ?_
        have hak : a.val ≤ k := (Finset.mem_filter.1 ha).2
        exact Finset.inf_le (Finset.mem_filter.2 ⟨Finset.mem_univ _, Nat.le_succ_of_le hak⟩)
      · exact Finset.inf_le (Finset.mem_filter.2 ⟨Finset.mem_univ _, Nat.le_refl (k + 1)⟩)

/-- After the last step the running minimum is the infimum of all. -/
theorem running_min_last {n : Nat} (h : Fin (n + 1) → EReal) (run : ℕ → EReal)
    (h0 : run 0 = min ⊤ (h ⟨0, Nat.succ_pos n⟩))
    (hs : ∀ k (hk : k + 1 < n + 1), run (k + 1) = min (run k) (h ⟨k + 1, hk⟩)) :
    run n = Finset.univ.inf h := by
  rw [running_min h run (Nat.succ_pos n) h0 hs n (Nat.lt_succ_self n)]
  congr 1
  exact Finset.filter_true_of_mem fun a _ => Nat.le_of_lt_succ a.isLt

/-- Sixteen steps. -/
theorem running_min16 (h : Fin 16 → EReal) (run : ℕ → EReal) (h0 : run 0 = min ⊤ (h 0))
    (hs : ∀ k (hk : k + 1 < 16), run (k + 1) = min (run k) (h ⟨k + 1, hk⟩)) :
    run 15 = Finset.univ.inf h :=
  running_min_last (n := 15) h run h0 hs

end Cert.Chamfer

end
-- ==== Proof.KIPayloads.lean ====
/-
  The kernel's pure values read at an index.

  One grid step forms, for the tile of 512 points of the first cloud and the tile of 256 points of the second, the
  squared distance of every pair — the three squared coordinate differences added from 0 —, its minimum along each of
  the two point axes, and the running minimum with what the earlier steps left.  Each is read here at explicit
  coordinates: the column slices, reshapes and broadcasts only move coordinates around, and a minimum along one axis
  from +∞ is the infimum over that axis.
-/
import proofs.«151664_j2602750181383_2_alg».proof.Proof.Gen.KernelIdeal.Skeleton
import proofs.«151664_j2602750181383_2_alg».proof.Proof.Tiles
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.ValueIdx Idealize.SL.Sem Cert.Chamfer

/-- The word 0x7F800000 is +∞. -/
theorem ofBits_top_f32 : Ideal.ofBits .f32 0x7F800000#32 = ⊤ := by simp [Ideal.ofBits, Ideal.ieee]

/-- Coordinate `c` of the first tile, spread along the second tile's points: at (b, r, j) it is the first tile's
    entry (b, r, c). -/
theorem xcol_apply (X0 : FVec Ideal S8x512x3 .f32) (c : Nat) (hc : c < 3)
    (hs : S8x512x3.Slices ![0, 0, c] S8x512x1) (h1 : S8x512x1.ShapeCasts S8x512) (h2 : S8x512.ShapeCasts S8x512x1)
    (hb : S8x512x1.Broadcasts S8x512x256) (b : Fin 8) (r : Fin 512) (j : Fin 256) :
    broadcastTo S8x512x256 (shapeCast S8x512x1 (shapeCast S8x512 (extractStridedSlice S8x512x1 ![0, 0, c] X0 hs) h1) h2)
        hb (ix3 b r j) = X0 (ix3 b r (⟨c, hc⟩ : Fin 3)) := by
  rw [shapeCast_shapeCast]
  refine (broadcastTo_apply _ hb (ix3 b r j) (ix3 b r (0 : Fin 1)) fun a => ?_).trans ?_
  · match a with
    | ⟨0, _⟩ => show b.val = if (8 : Nat) = 1 then 0 else b.val; rw [if_neg (by decide)]
    | ⟨1, _⟩ => show r.val = if (512 : Nat) = 1 then 0 else r.val; rw [if_neg (by decide)]
    | ⟨2, _⟩ => show 0 = if (1 : Nat) = 1 then 0 else j.val; rw [if_pos rfl]
  · refine extractStridedSlice_apply _ X0 hs (ix3 b r (0 : Fin 1)) (ix3 b r (⟨c, hc⟩ : Fin 3)) fun a => ?_
    match a with
    | ⟨0, _⟩ => show b.val = 0 + b.val; rw [Nat.zero_add]
    | ⟨1, _⟩ => show r.val = 0 + r.val; rw [Nat.zero_add]
    | ⟨2, _⟩ => show c = c + 0; rfl

/-- Coordinate `c` of the second tile, spread along the first tile's points: at (b, r, j) it is the second tile's
    entry (b, j, c). -/
theorem ycol_apply (X1 : FVec Ideal S8x256x3 .f32) (c : Nat) (hc : c < 3)
    (hs : S8x256x3.Slices ![0, 0, c] S8x256x1) (h1 : S8x256x1.ShapeCasts S8x256) (h2 : S8x256.ShapeCasts S8x1x256)
    (hb : S8x1x256.Broadcasts S8x512x256) (b : Fin 8) (r : Fin 512) (j : Fin 256) :
    broadcastTo S8x512x256 (shapeCast S8x1x256 (shapeCast S8x256 (extractStridedSlice S8x256x1 ![0, 0, c] X1 hs) h1) h2)
        hb (ix3 b r j) = X1 (ix3 b j (⟨c, hc⟩ : Fin 3)) := by
  refine (broadcastTo_apply _ hb (ix3 b r j) (ix3 b (0 : Fin 1) j) fun a => ?_).trans ?_
  · match a with
    | ⟨0, _⟩ => show b.val = if (8 : Nat) = 1 then 0 else b.val; rw [if_neg (by decide)]
    | ⟨1, _⟩ => show 0 = if (1 : Nat) = 1 then 0 else r.val; rw [if_pos rfl]
    | ⟨2, _⟩ => show j.val = if (256 : Nat) = 1 then 0 else j.val; rw [if_neg (by decide)]
  refine (shapeCast_apply _ h2 (ix3 b (0 : Fin 1) j) (ix2 b j) ?_).trans ?_
  · rw [Shape.rowMajor_val_two, Shape.rowMajor_val_three]
    show b.val * 256 + j.val = (b.val * 1 + 0) * 256 + j.val
    omega
  refine (shapeCast_apply _ h1 (ix2 b j) (ix3 b j (0 : Fin 1)) ?_).trans ?_
  · rw [Shape.rowMajor_val_three, Shape.rowMajor_val_two]
    show (b.val * 256 + j.val) * 1 + 0 = b.val * 256 + j.val
    omega
  refine extractStridedSlice_apply _ X1 hs (ix3 b j (0 : Fin 1)) (ix3 b j (⟨c, hc⟩ : Fin 3)) fun a => ?_
  match a with
  | ⟨0, _⟩ => show b.val = 0 + b.val; rw [Nat.zero_add]
  | ⟨1, _⟩ => show j.val = 0 + j.val; rw [Nat.zero_add]
  | ⟨2, _⟩ => show c = c + 0; rfl

/-- The squared distances of the two tiles' points, at the pair (b, r, j). -/
theorem pay5_apply (X0 : FVec Ideal S8x512x3 .f32) (X1 : FVec Ideal S8x256x3 .f32) (b : Fin 8) (r : Fin 512)
    (j : Fin 256) :
    k0_pay5 (F := Ideal) X0 X1 (ix3 b r j)
      = ((0 + (X0 (ix3 b r 0) - X1 (ix3 b j 0)) * (X0 (ix3 b r 0) - X1 (ix3 b j 0)))
          + (X0 (ix3 b r 1) - X1 (ix3 b j 1)) * (X0 (ix3 b r 1) - X1 (ix3 b j 1)))
        + (X0 (ix3 b r 2) - X1 (ix3 b j 2)) * (X0 (ix3 b r 2) - X1 (ix3 b j 2)) := by
  unfold k0_pay5
  simp only [addf_apply, mulf_apply, subf_apply, broadcast_apply]
  rw [xcol_apply X0 0 (by decide) _ _ _ _ b r j, ycol_apply X1 0 (by decide) _ _ _ _ b r j,
    xcol_apply X0 1 (by decide) _ _ _ _ b r j, ycol_apply X1 1 (by decide) _ _ _ _ b r j,
    xcol_apply X0 2 (by decide) _ _ _ _ b r j, ycol_apply X1 2 (by decide) _ _ _ _ b r j,
    Ideal.ofBits_def, Ideal.ofBits_zero_f32]
  rfl

/-- A minimum along one axis, from the +∞ word, is the fold of `min` from that word over the axis. -/
theorem multiReduction_min_single {s t : Shape} {a : Fin s.rank} (src : FVec Ideal s .f32) (h : s.Reduces [a] t)
    (hφ : FKind.Formats .f32) (hacc : (0x7F800000#32 : BitVec 32) = FKind.minimumf.neutral .f32 hφ) (j : t.Idx) :
    multiReduction .minimumf [a] t src 0x7F800000#32 h hφ hacc j
      = (Finset.univ : Finset (Fin (s.size a))).inf (src ∘ h.lift j) := by
  refine (multiReduction_minimumf_eq_fold src 0x7F800000#32 h hφ hacc j).trans ?_
  refine (h.fold_filter_drop_single FloatOps.minimumf _ src j).trans ?_
  show Finset.fold min (Ideal.ofBits .f32 0x7F800000#32) (src ∘ h.lift j) Finset.univ = _
  rw [ofBits_top_f32, fold_min_top_eq_inf]

/-- Over the result index (b, r), coordinate k on the last axis is the pair (b, r, k). -/
theorem lift_last (h : S8x512x256.Reduces [2] S8x512) (b : Fin 8) (r : Fin 512) (k : Fin (S8x512x256.size 2)) :
    h.lift (ix2 b r) k = ix3 b r (⟨k.val, k.isLt⟩ : Fin 256) := by
  funext c; apply Fin.ext
  match c with | ⟨0, _⟩ => rfl | ⟨1, _⟩ => rfl | ⟨2, _⟩ => rfl

/-- Over the result index (b, j), coordinate k on the middle axis is the pair (b, k, j). -/
theorem lift_mid (h : S8x512x256.Reduces [1] S8x256) (b : Fin 8) (j : Fin 256) (k : Fin (S8x512x256.size 1)) :
    h.lift (ix2 b j) k = ix3 b (⟨k.val, k.isLt⟩ : Fin 512) j := by
  funext c; apply Fin.ext
  match c with | ⟨0, _⟩ => rfl | ⟨1, _⟩ => rfl | ⟨2, _⟩ => rfl

/-- The running minimum's step: what the earlier steps left, against this step's least squared distance of point
    (b, r) of the first tile to the second tile's points. -/
theorem pay6_apply (X0 : FVec Ideal S8x512x3 .f32) (X1 : FVec Ideal S8x256x3 .f32) (s : FVec Ideal S8x512 .f32)
    (b : Fin 8) (r : Fin 512) :
    k0_pay6 (F := Ideal) X0 X1 s (ix2 b r)
      = min (s (ix2 b r)) (Finset.univ.inf fun j : Fin 256 => k0_pay5 (F := Ideal) X0 X1 (ix3 b r j)) := by
  unfold k0_pay6
  show min (s (ix2 b r)) (multiReduction .minimumf [2] S8x512 (k0_pay5 (F := Ideal) X0 X1) 0x7F800000#32
    reduces_S8x512x256_S8x512 (.inl rfl) rfl (ix2 b r)) = _
  refine congrArg (min (s (ix2 b r))) ?_
  refine (multiReduction_min_single (k0_pay5 (F := Ideal) X0 X1) reduces_S8x512x256_S8x512 (.inl rfl) rfl (ix2 b r)).trans ?_
  show (Finset.univ : Finset (Fin 256)).inf (k0_pay5 (F := Ideal) X0 X1 ∘ reduces_S8x512x256_S8x512.lift (ix2 b r)) = _
  refine Finset.inf_congr rfl fun k _ => ?_
  exact congrArg (k0_pay5 (F := Ideal) X0 X1) (lift_last reduces_S8x512x256_S8x512 b r k)

/-- This step's least squared distance of point (b, j) of the second tile to the first tile's points. -/
theorem pay2_apply (X0 : FVec Ideal S8x512x3 .f32) (X1 : FVec Ideal S8x256x3 .f32) (b : Fin 8) (j : Fin 256) :
    k0_pay2 (F := Ideal) (k0_pay5 (F := Ideal) X0 X1) (ix2 b j)
      = Finset.univ.inf fun r : Fin 512 => k0_pay5 (F := Ideal) X0 X1 (ix3 b r j) := by
  unfold k0_pay2
  rw [shapeCast_self]
  refine (multiReduction_min_single (k0_pay5 (F := Ideal) X0 X1) reduces_S8x512x256_S8x256 (.inl rfl) rfl (ix2 b j)).trans ?_
  show (Finset.univ : Finset (Fin 512)).inf (k0_pay5 (F := Ideal) X0 X1 ∘ reduces_S8x512x256_S8x256.lift (ix2 b j)) = _
  refine Finset.inf_congr rfl fun k _ => ?_
  exact congrArg (k0_pay5 (F := Ideal) X0 X1) (lift_mid reduces_S8x512x256_S8x256 b j k)

/-- The stored running minimum is the running minimum. -/
theorem pay1_eq (s : FVec Ideal S8x512 .f32) : k0_pay1 (F := Ideal) s = s := by
  unfold k0_pay1
  exact shapeCast_self s _

/-- The running minimum starts from +∞. -/
theorem pay4_apply (b : Fin 8) (r : Fin 512) : k0_pay4 (F := Ideal) (ix2 b r) = ⊤ := by
  unfold k0_pay4
  rw [shapeCast_self]
  exact ofBits_top_f32

/-- The partial minima written out with a leading unit axis: entry (0, b, col) is entry (b, col). -/
theorem pay3_apply (v : FVec Ideal S8x4096 .f32) (b : Fin 8) (col : Fin 4096) :
    k0_pay3 (F := Ideal) v (ix3 (0 : Fin 1) b col) = v (ix2 b col) := by
  unfold k0_pay3
  exact shapeCast_ab_1ab_apply v _ (0 : Fin 1) b col

end Cert.KernelIdeal.Payloads

end
-- ==== Proof.Spec.lean ====
/-
  The mathematics both programs compute, stated once over the argument arrays and free of either program's text.

  Two point clouds `x`, `y` of 8 batches × 4096 points × 3 coordinates.  For a batch `b`, a point `p` of `x` and a
  point `q` of `y`, `d2 x y b p q` is the squared Euclidean distance, the three squared differences added in the order
  ((0 + s₀) + s₁) + s₂.  `cx` is, for each point of `x`, the least squared distance to a point of `y` in the same batch;
  `cy` the same with the roles exchanged.  The infimum of the empty family is +∞, the value both programs start
  their minima from.
-/
import Idealize.ShloMosaic.PureOps.Ideal
import Idealize.ShloMosaic.Lib.ValueIdx

noncomputable section

namespace Cert.Chamfer

open Idealize.ShloMosaic Idealize.ShloMosaic.ValueIdx

/-- A cloud: 8 batches of 4096 points with 3 coordinates. -/
abbrev Cloud : Shape := ⟨3, ![8, 4096, 3]⟩
/-- One value per batch and point. -/
abbrev PerPoint : Shape := ⟨2, ![8, 4096]⟩

/-- The squared difference of coordinate `d` of point `p` of `x` and point `q` of `y`, in batch `b`. -/
def sq (x y : Cloud.Idx → EReal) (b : Fin 8) (p q : Fin 4096) (d : Fin 3) : EReal :=
  (x (ix3 b p d) - y (ix3 b q d)) * (x (ix3 b p d) - y (ix3 b q d))

/-- The squared distance of point `p` of `x` and point `q` of `y` in batch `b`. -/
def d2 (x y : Cloud.Idx → EReal) (b : Fin 8) (p q : Fin 4096) : EReal :=
  ((0 + sq x y b p q 0) + sq x y b p q 1) + sq x y b p q 2

/-- For each point of `x`: the least squared distance to a point of `y` of the same batch. -/
def cx (x y : Cloud.Idx → EReal) : PerPoint.Idx → EReal :=
  fun i => Finset.univ.inf fun q : Fin 4096 => d2 x y (i 0) (i 1) q

/-- For each point of `y`: the least squared distance to a point of `x` of the same batch. -/
def cy (x y : Cloud.Idx → EReal) : PerPoint.Idx → EReal :=
  fun i => Finset.univ.inf fun p : Fin 4096 => d2 x y (i 0) p (i 1)

end Cert.Chamfer

end
-- ==== Proof.KIValue.lean ====
/-
  The two arrays the distance kernel leaves, read over the extended reals.

  With `x` the first cloud (the kernel's first staged operand) and `y` the second: the tile of squared distances a
  point computes is `d2 x y` at the tile's rows and columns; folding the row minima of the 16 tiles of a sweep into +∞
  one after the other gives the minimum over all 4096 points of `y` (a running minimum over tiles is the minimum over
  their union), so the first output ends at `cx x y`; and slab `p` of the second output holds, column by column, the
  minimum over the 512 points of tile `p` of `x`.
-/
import proofs.«151664_j2602750181383_2_alg».proof.Proof.KIBody
import proofs.«151664_j2602750181383_2_alg».proof.Proof.KIBlocks
import proofs.«151664_j2602750181383_2_alg».proof.Proof.KIPayloads
import proofs.«151664_j2602750181383_2_alg».proof.Proof.Spec
import proofs.«151664_j2602750181383_2_alg».proof.Proof.Tiles
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Chamfer Cert.KernelIdeal.Payloads

variable (m : (ℓ : Loc nD τ sig) → Buf (Elt Ideal) ℓ)

/-- The first cloud (the points whose nearest neighbours the first output holds) and the second, as the region finds them. -/
abbrev cloudX (c : Dev nD) : Cloud.Idx → EReal := V m c main_arg1
abbrev cloudY (c : Dev nD) : Cloud.Idx → EReal := V m c main_arg0

/-- The tile of distances at point `t` is `d2` at the tile's rows and columns. -/
theorem tile_d2 (c : Dev nD) (t : Fin cfg0.N) (b : Fin 8) (r : Fin 512) (j : Fin 256) :
    k0_pay5 (F := Ideal) (iblk m c 0 t) (iblk m c 1 t) (ix3 b r j) = d2 (cloudX m c) (cloudY m c) b (rowOf t r) (colOf t j) := by
  refine (pay5_apply (iblk m c 0 t) (iblk m c 1 t) b r j).trans ?_
  rw [iblk0_apply m c t b r 0, iblk0_apply m c t b r 1, iblk0_apply m c t b r 2,
    iblk1_apply m c t b j 0, iblk1_apply m c t b j 1, iblk1_apply m c t b j 2]
  rfl

/-- The least squared distance from point `P` of `x` to the 256 points of tile `a` of `y`. -/
def tileMin (c : Dev nD) (b : Fin 8) (P : Fin 4096) (a : Fin 16) : EReal :=
  Finset.univ.inf fun j : Fin 256 => d2 (cloudX m c) (cloudY m c) b P ⟨256 * a.val + j.val, tile_lt (n := 16) (m := 256) a j⟩

theorem accAt_congr (c : Dev nD) {n n' : ℕ} (h : n = n') (hn : n < cfg0.N) (hn' : n' < cfg0.N) :
    accAt m c n hn = accAt m c n' hn' := by subst h; rfl

theorem sweep_lt (p : Fin 8) (k : ℕ) (hk : k < 16) : 16 * p.val + k < cfg0.N := by
  rw [N_eq]; have := p.isLt; omega

/-- The row minima of the tile at position `k` of sweep `p`. -/
theorem row_tile (c : Dev nD) (p : Fin 8) (k : ℕ) (hk : k < 16) (b : Fin 8) (r : Fin 512) :
    (Finset.univ.inf fun j : Fin 256 => k0_pay5 (F := Ideal) (iblk m c 0 ⟨16 * p.val + k, sweep_lt p k hk⟩) (iblk m c 1 ⟨16 * p.val + k, sweep_lt p k hk⟩) (ix3 b r j))
      = tileMin m c b ⟨512 * p.val + r.val, tile_lt (n := 8) (m := 512) p r⟩ ⟨k, hk⟩ := by
  refine Finset.inf_congr rfl fun j _ => ?_
  rw [tile_d2]
  have e1 : rowOf ⟨16 * p.val + k, sweep_lt p k hk⟩ r = ⟨512 * p.val + r.val, tile_lt (n := 8) (m := 512) p r⟩ :=
    Fin.ext (by show 512 * ((16 * p.val + k) / 16) + r.val = 512 * p.val + r.val; omega)
  have e2 : colOf ⟨16 * p.val + k, sweep_lt p k hk⟩ j = ⟨256 * k + j.val, tile_lt (n := 16) (m := 256) ⟨k, hk⟩ j⟩ :=
    Fin.ext (by show 256 * ((16 * p.val + k) % 16) + j.val = 256 * k + j.val; omega)
  rw [e1, e2]

theorem filter_le_zero : (Finset.univ.filter fun a : Fin 16 => a.val ≤ 0) = {(0 : Fin 16)} := by
  ext a; simp only [Finset.mem_filter, Finset.mem_univ, true_and, Finset.mem_singleton, Fin.ext_iff, Fin.val_zero]; omega

theorem filter_le_succ (k : ℕ) (hk : k + 1 < 16) :
    (Finset.univ.filter fun a : Fin 16 => a.val ≤ k + 1) = insert (⟨k + 1, hk⟩ : Fin 16) (Finset.univ.filter fun a : Fin 16 => a.val ≤ k) := by
  ext a; simp only [Finset.mem_filter, Finset.mem_univ, true_and, Finset.mem_insert, Fin.ext_iff]; omega

/-- Along a sweep the running minimum is the minimum over the tiles met so far. -/
theorem acc_sweep (c : Dev nD) (p : Fin 8) (b : Fin 8) (r : Fin 512) : ∀ (k : ℕ) (hk : k < 16),
    accAt m c (16 * p.val + k) (sweep_lt p k hk) (ix2 b r)
      = (Finset.univ.filter fun a : Fin 16 => a.val ≤ k).inf (tileMin m c b ⟨512 * p.val + r.val, tile_lt (n := 8) (m := 512) p r⟩)
  | 0, hk => by
    have e := accAt_first m c ⟨16 * p.val + 0, sweep_lt p 0 hk⟩ (by show (16 * p.val + 0) % 16 = 0; omega)
    refine (congrFun e (ix2 b r)).trans ?_
    rw [pay1_eq]
    refine (pay6_apply _ _ _ b r).trans ?_
    rw [pay4_apply, row_tile m c p 0 hk b r, filter_le_zero, Finset.inf_singleton]
    exact top_inf_eq _
  | k + 1, hk => by
    have hne : ¬(16 * p.val + (k + 1)) % 16 = 0 := by omega
    have e := accAt_next m c ⟨16 * p.val + (k + 1), sweep_lt p (k + 1) hk⟩ hne
    refine (congrFun e (ix2 b r)).trans ?_
    rw [pay1_eq]
    refine (pay6_apply _ _ _ b r).trans ?_
    rw [row_tile m c p (k + 1) hk b r, filter_le_succ k hk, Finset.inf_insert,
      accAt_congr m c (show (⟨16 * p.val + (k + 1), sweep_lt p (k + 1) hk⟩ : Fin cfg0.N).val - 1 = 16 * p.val + k from by
        show 16 * p.val + (k + 1) - 1 = 16 * p.val + k; omega) _ (sweep_lt p k (by omega)),
      acc_sweep c p b r k (by omega)]
    exact inf_comm _ _

/-- At the last point of a sweep the running minimum is the nearest-neighbour distance over all of `y`. -/
theorem acc_last (c : Dev nD) (t : Fin cfg0.N) (h15 : t.val % 16 = 15) (b : Fin 8) (r : Fin 512) :
    accAt m c t.val t.isLt (ix2 b r) = cx (cloudX m c) (cloudY m c) (ix2 b (rowOf t r)) := by
  have ht : t.val = 16 * (tileOf t).val + 15 := by show t.val = 16 * (t.val / 16) + 15; omega
  rw [accAt_congr m c ht t.isLt (sweep_lt (tileOf t) 15 (by norm_num)), acc_sweep m c (tileOf t) b r 15 (by norm_num)]
  have hall : (Finset.univ.filter fun a : Fin 16 => a.val ≤ 15) = Finset.univ :=
    Finset.filter_true_of_mem fun a _ => by have := a.isLt; omega
  rw [hall]
  have hP : (⟨512 * (tileOf t).val + r.val, tile_lt (n := 8) (m := 512) (tileOf t) r⟩ : Fin 4096) = rowOf t r := rfl
  rw [hP]
  exact (inf_tiles16 fun q => d2 (cloudX m c) (cloudY m c) b (rowOf t r) q).symm

/-- What the last point of a sweep writes back to the first output is its block of `cx`. -/
theorem flushed2_eq (c : Dev nD) (t : Fin cfg0.N) (hf : (cfg0.win 2).flush t = true) :
    (dats m 0 c).flushed 2 t = ((cfg0.win 2).blk t).view.read (Elt Ideal) (cx (cloudX m c) (cloudY m c)) := by
  have h15 := (flush0_2 t).mp hf
  show (cfg0.win 2).cut (grid0.coords t) ((dats m 0 c).after 2 t) = _
  rw [after_2]
  funext j
  obtain ⟨b, r, rfl⟩ : ∃ (b : Fin 8) (r : Fin 512), j = ix2 b r := ⟨j 0, j 1, eq_ix2 j⟩
  show accAt m c t.val t.isLt (ix2 b r) = cx (cloudX m c) (cloudY m c) (((cfg0.win 2).blk t).view.emb (ix2 b r))
  rw [emb2, acc_last m c t h15 b r]

/-- The first output after the run: the nearest-neighbour distances from `x` to `y`. -/
theorem final2 (c : Dev nD) : (dats m 0 c).arrAt 2 cfg0.N = cx (cloudX m c) (cloudY m c) :=
  (dats m 0 c).arrAt_eq_of_cover 2 (cx (cloudX m c) (cloudY m c)) (fun t hf => flushed2_eq m c t hf) cover2

/-- The second output's contents: slab `p`, batch `b`, column `col` holds the least squared distance from point `col` of
    `y` to the 512 points of tile `p` of `x`. -/
def partials (c : Dev nD) : S8x8x4096.Idx → EReal := fun i =>
  Finset.univ.inf fun r : Fin 512 => d2 (cloudX m c) (cloudY m c) (i 1) ⟨512 * (i 0).val + r.val, tile_lt (n := 8) (m := 512) (i 0) r⟩ (i 2)

/-- The completed sweep's column minima, read at an index. -/
theorem parkedAll_idx (c : Dev nD) (p : Fin 8) (y : S8x4096.Idx) :
    parkedAll m c p.val y
      = Finset.univ.inf fun r : Fin 512 => d2 (cloudX m c) (cloudY m c) (y 0) ⟨512 * p.val + r.val, tile_lt (n := 8) (m := 512) p r⟩ (y 1) := by
  have hp := p.isLt
  have hc : (y 1).val < 4096 := (y 1).isLt
  have hv : (pt (16 * p.val + (y 1).val / 256)).val = 16 * p.val + (y 1).val / 256 := pt_val' _ (by omega)
  unfold parkedAll colMin
  refine (pay2_apply (iblk m c 0 (pt (16 * p.val + (y 1).val / 256))) (iblk m c 1 (pt (16 * p.val + (y 1).val / 256))) (y 0)
    ⟨(y 1).val % 256, Nat.mod_lt _ (by norm_num)⟩).trans ?_
  refine Finset.inf_congr rfl fun r _ => ?_
  refine (tile_d2 m c (pt (16 * p.val + (y 1).val / 256)) (y 0) r ⟨(y 1).val % 256, Nat.mod_lt _ (by norm_num)⟩).trans ?_
  have e1 : rowOf (pt (16 * p.val + (y 1).val / 256)) r = ⟨512 * p.val + r.val, tile_lt (n := 8) (m := 512) p r⟩ :=
    Fin.ext (by show 512 * ((pt (16 * p.val + (y 1).val / 256)).val / 16) + r.val = 512 * p.val + r.val; rw [hv]; omega)
  have e2 : colOf (pt (16 * p.val + (y 1).val / 256)) ⟨(y 1).val % 256, Nat.mod_lt _ (by norm_num)⟩ = (y 1 : Fin 4096) :=
    Fin.ext (by show 256 * ((pt (16 * p.val + (y 1).val / 256)).val % 16) + (y 1).val % 256 = (y 1).val; rw [hv]; omega)
  exact congr (congrArg (d2 (cloudX m c) (cloudY m c) (y 0)) e1) e2

/-- What the last point of a sweep writes back to the second output is its slab of `partials`. -/
theorem flushed3_eq (c : Dev nD) (t : Fin cfg0.N) (hf : (cfg0.win 3).flush t = true) :
    (dats m 0 c).flushed 3 t = ((cfg0.win 3).blk t).view.read (Elt Ideal) (partials m c) := by
  show (cfg0.win 3).cut (grid0.coords t) ((dats m 0 c).after 3 t) = _
  rw [after_3]
  funext j
  obtain ⟨z, b, col, rfl⟩ : ∃ (z : Fin 1) (b : Fin 8) (col : Fin 4096), j = ix3 z b col := ⟨j 0, j 1, j 2, eq_ix3 j⟩
  obtain rfl : z = 0 := Subsingleton.elim _ _
  show k0_pay3 (F := Ideal) (parkedAll m c (t.val / 16)) (ix3 (0 : Fin 1) b col) = partials m c (((cfg0.win 3).blk t).view.emb (ix3 (0 : Fin 1) b col))
  rw [emb3, pay3_apply]
  exact parkedAll_idx m c (tileOf t) (ix2 b col)

/-- The second output after the run. -/
theorem final3 (c : Dev nD) : (dats m 0 c).arrAt 3 cfg0.N = partials m c :=
  (dats m 0 c).arrAt_eq_of_cover 3 (partials m c) (fun t hf => flushed3_eq m c t hf) cover3

end Cert.KernelIdeal.Body

end
-- ==== Proof.KIResult.lean ====
/-
  The kernel's result over the extended reals.  After the region the host takes, column by column, the minimum of the
  8 slabs of the second output, multiplies the first output by the mask, and adds the two means (each a sum over the
  8 × 4096 entries divided by 32768).  With the two outputs read as in the value module this is one function of the
  argument arrays.
-/
import proofs.«151664_j2602750181383_2_alg».proof.Proof.KIValue

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Chamfer

variable (m : (ℓ : Loc nD τ sig) → Buf (Elt Ideal) ℓ) (ρ : Dev nD → PrngReg)

/-- The host lines after the region as one function of the two outputs and the mask. -/
def tailK (a : FVec Ideal S8x4096 .f32) (w : FVec Ideal S8x8x4096 .f32) (mask : FVec Ideal S2x4x1x64x64 .f32) : FVec Ideal S_ .f32 :=
  addf
    (Host.divf
      (Host.reduceAdd (mulf a (shapeCast S8x4096 mask shapeCasts_S2x4x1x64x64_S8x4096))
        (constant (F := Ideal) S_ .f32 0x00000000#32) reducesTo_S8x4096_S_d0_1 h_S_)
      (constant (F := Ideal) S_ .f32 0x47000000#32))
    (Host.divf
      (Host.reduceAdd
        (Host.reduce FloatOps.minimumf w (constant (F := Ideal) S_ .f32 0x7F800000#32) reducesTo_S8x8x4096_S8x4096_d0 h_S_)
        (constant (F := Ideal) S_ .f32 0x00000000#32) reducesTo_S8x4096_S_d0_1 h_S_)
      (constant (F := Ideal) S_ .f32 0x47000000#32))

/-- What the host lines leave in the result buffer, from the arrays the region leaves. -/
theorem result_eq (c : Dev nD) :
    Pipeline.afterTail₀ cfgs (dats m) 0 (V0 m) [hostOps1] c main_v8
      = tailK ((dats m 0 c).arrAt 2 cfg0.N) ((dats m 0 c).arrAt 3 cfg0.N) (m ((c.tc : Thread nD τ).loc main_arg2)) := by
  unfold Pipeline.afterTail₀
  show StableHlo.after hostOps1 _ (Proc.devRef .tc main_v8) = _
  after_results
  have e2 : Pipeline.withArrays (cfgs 0).spec c (V0 m c) (fun w => (dats m 0 c).arrAt w (cfgs 0).N) (Proc.devRef .tc main_v0_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v0_1)
      = (dats m 0 c).arrAt 3 cfg0.N := Pipeline.withArrays_arr spec0 launch0.win.arr_inj c _ _ 3
  have ea : Pipeline.withArrays (cfgs 0).spec c (V0 m c) (fun w => (dats m 0 c).arrAt w (cfgs 0).N) (Proc.devRef .tc main_arg2)
      = m ((c.tc : Thread nD τ).loc main_arg2) :=
    Pipeline.withArrays_of_ne spec0 c (V0 m c) _ main_arg2 (by exact (by decide : ∀ w, Pipeline.arrRef spec0 w ≠ main_arg2))
  rw [e2, e3, ea]
  rfl

/-- Every weakly fair execution of the kernel's program terminates with the result at `tailK` of the nearest-neighbour
    distances from `x`, the per-tile column minima and the mask, and the arguments unchanged. -/
theorem run : θ_run defs (onTc (τ := τ) (main (F := Ideal))) ⟨m, fun _ => 0, ρ⟩ (fun r => ∀ c : Dev nD,
      r.2.mem ((c.tc : Thread nD τ).loc main_v8) = tailK (cx (cloudX m c) (cloudY m c)) (partials m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v8 (Pipeline.mem_restRefs_of main_v8 (by decide) (by decide))).trans
        ((result_eq m c).trans (by rw [final2, final3])),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c))⟩)
    (run_main m ρ)

end Cert.KernelIdeal.Body

end
-- ==== Proof.Algebra.lean ====
/-
  The algebra behind the two arrangements of a squared distance.

  For two real triples a, b the quantity |a|² + |b|² − 2⟨a, b⟩, floored at 0, is the sum of the three squared
  coordinate differences: over the reals the two are equal by expanding the squares, and a sum of squares is
  non-negative, so the floor does nothing.  Over the extended reals the identity needs the coordinates to be real
  (finite): with an infinite coordinate the left side meets ∞ − ∞.
-/
import proofs.«151664_j2602750181383_2_alg».proof.Proof.Spec
import Mathlib.Tactic.Ring
import Mathlib.Tactic.Positivity
import Mathlib.Tactic.NormNum

noncomputable section

namespace Cert.Chamfer

open Idealize.ShloMosaic Idealize.ShloMosaic.ValueIdx

/-- The identity on real numbers: expanding the squares. -/
theorem expand_real (a0 a1 a2 b0 b1 b2 : ℝ) :
    ((0 + (a0 * a0 + a1 * a1 + a2 * a2)) + (0 + (b0 * b0 + b1 * b1 + b2 * b2))) - 2 * (a0 * b0 + a1 * b1 + a2 * b2)
      = ((0 + (a0 - b0) * (a0 - b0)) + (a1 - b1) * (a1 - b1)) + (a2 - b2) * (a2 - b2) := by
  ring

/-- A sum of three real squares, added from 0, is non-negative. -/
theorem sumsq_nonneg (a0 a1 a2 b0 b1 b2 : ℝ) :
    0 ≤ ((0 + (a0 - b0) * (a0 - b0)) + (a1 - b1) * (a1 - b1)) + (a2 - b2) * (a2 - b2) := by
  have h0 := mul_self_nonneg (a0 - b0)
  have h1 := mul_self_nonneg (a1 - b1)
  have h2 := mul_self_nonneg (a2 - b2)
  linarith

/-- For triples of extended reals whose entries are real: |a|² + |b|² − 2⟨a, b⟩ floored at 0 is the sum of the
    squared differences, each side associated as written. -/
theorem expand (a b : Fin 3 → EReal) (ha : ∀ k, ∃ r : ℝ, a k = r) (hb : ∀ k, ∃ r : ℝ, b k = r) :
    max (((0 + ∑ k : Fin 3, a k * a k) + (0 + ∑ k : Fin 3, b k * b k)) - 2 * ∑ k : Fin 3, a k * b k) 0
      = ((0 + (a 0 - b 0) * (a 0 - b 0)) + (a 1 - b 1) * (a 1 - b 1)) + (a 2 - b 2) * (a 2 - b 2) := by
  obtain ⟨a0, e0⟩ := ha 0
  obtain ⟨a1, e1⟩ := ha 1
  obtain ⟨a2, e2⟩ := ha 2
  obtain ⟨b0, f0⟩ := hb 0
  obtain ⟨b1, f1⟩ := hb 1
  obtain ⟨b2, f2⟩ := hb 2
  rw [Fin.sum_univ_three, Fin.sum_univ_three, Fin.sum_univ_three, e0, e1, e2, f0, f1, f2]
  have h2 : (2 : EReal) = ((2 : ℝ) : EReal) := rfl
  have h0 : (0 : EReal) = ((0 : ℝ) : EReal) := rfl
  rw [h2, h0]
  simp only [← EReal.coe_mul, ← EReal.coe_add, ← EReal.coe_sub]
  rw [expand_real, max_eq_left (EReal.coe_le_coe_iff.mpr (sumsq_nonneg a0 a1 a2 b0 b1 b2))]

/-- The reference's arrangement of the squared distance of point `p` of `x` and point `q` of `y` in batch `b`,
    for clouds with real coordinates, is `d2`. -/
theorem d2_eq_ref (x y : Cloud.Idx → EReal) (hx : ∀ i, ∃ r : ℝ, x i = r) (hy : ∀ i, ∃ r : ℝ, y i = r)
    (b : Fin 8) (p q : Fin 4096) :
    max (((0 + ∑ k : Fin 3, x (ix3 b p k) * x (ix3 b p k)) + (0 + ∑ k : Fin 3, y (ix3 b q k) * y (ix3 b q k)))
        - 2 * ∑ k : Fin 3, x (ix3 b p k) * y (ix3 b q k)) 0 = d2 x y b p q :=
  expand (fun k => x (ix3 b p k)) (fun k => y (ix3 b q k)) (fun k => hx _) (fun k => hy _)

end Cert.Chamfer

end
-- ==== Proof.RefValue.lean ====
/-
  The reference program's result as the common specification.

  With x = the second argument and y = the first, the reference forms |x_p|² + |y_q|² − 2⟨x_p, y_q⟩ floored at 0 for
  every pair of points of a batch; on real coordinates that is the squared distance `d2` (the algebra module).  Its
  minimum over q from +∞ is `cx`, its minimum over p from +∞ is `cy`: a minimum-reduce over one axis is the fold of
  `min` over that axis's coordinates, which from ⊤ is the infimum.  What follows the two minima — the mask product, the
  two total sums, the divisions by 32768 and the final sum — is kept as one function `tail` of the two minima arrays.
-/
import proofs.«151664_j2602750181383_2_alg».proof.Proof.Gen.ReferenceIdeal.Read
import proofs.«151664_j2602750181383_2_alg».proof.Proof.Spec
import proofs.«151664_j2602750181383_2_alg».proof.Proof.Algebra

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Chamfer

/-- The word 0x40000000 is the float 2. -/
theorem ofBits_two_f32 : Ideal.ofBits .f32 0x40000000#32 = 2 := by
  simp [Ideal.ofBits, Ideal.ieee]
  rw [← EReal.coe_mul]
  norm_num
  rfl

/-- The word 0x7F800000 is +∞. -/
theorem ofBits_top_f32 : Ideal.ofBits .f32 0x7F800000#32 = ⊤ := by simp [Ideal.ofBits, Ideal.ieee]

/-! ## Where each stage reads the clouds, at the pair (b, p, q) -/

theorem idx_x2 (b : Fin 8) (p q : Fin 4096) (k : Fin 3) :
    idx_main_v1 (idx_main_v5 (idx_main_v7 (ix3 b p q))) k = ix3 b p k := by
  funext a; match a with | ⟨0, _⟩ => rfl | ⟨1, _⟩ => rfl | ⟨2, _⟩ => rfl

theorem idx_y2 (b : Fin 8) (p q : Fin 4096) (k : Fin 3) :
    idx_main_v3 (idx_main_v6 (idx_main_v8 (ix3 b p q))) k = ix3 b q k := by
  funext a; match a with | ⟨0, _⟩ => rfl | ⟨1, _⟩ => rfl | ⟨2, _⟩ => rfl

theorem idx_l (b : Fin 8) (p q : Fin 4096) (k : Fin 3) : lidx_main_v4 (ix3 b p q) k = ix3 b p k := by
  funext a; match a with | ⟨0, _⟩ => rfl | ⟨1, _⟩ => rfl | ⟨2, _⟩ => rfl

theorem idx_r (b : Fin 8) (p q : Fin 4096) (k : Fin 3) : ridx_main_v4 (ix3 b p q) k = ix3 b q k := by
  funext a; match a with | ⟨0, _⟩ => rfl | ⟨1, _⟩ => rfl | ⟨2, _⟩ => rfl

/-- The floored expansion at the pair (b, p, q) is the squared distance of point p of the second argument and point q
    of the first, when both clouds are real. -/
theorem v14_apply (x0 x1 : FVec Ideal S8x4096x3 .f32) (h0 : ∀ i, ∃ r : ℝ, x0 i = r) (h1 : ∀ i, ∃ r : ℝ, x1 i = r)
    (b : Fin 8) (p q : Fin 4096) :
    val_main_v14 (F := Ideal) x0 x1 (ix3 b p q) = d2 x1 x0 b p q := by
  rw [val_main_v14_apply, val_main_v12_apply, val_main_v13_apply, val_main_cst_2_apply, val_main_v9_apply,
    val_main_v11_apply, val_main_v7_apply, val_main_v8_apply, val_main_v5_apply, val_main_v6_apply, val_main_v1_apply,
    val_main_v3_apply, val_main_v10_apply, val_main_cst_1_apply, val_main_v4_apply, val_main_cst_apply,
    val_main_cst_0_apply]
  simp only [val_main_v0_apply, val_main_v2_apply, idx_x2, idx_y2, idx_l, idx_r, Ideal.ofBits_def, Ideal.addf_def,
    Ideal.subf_def, Ideal.mulf_def, Ideal.maximumf_def, Ideal.ofBits_zero_f32, ofBits_two_f32]
  exact d2_eq_ref x1 x0 h1 h0 b p q

/-! ## The two minima -/

/-- A fold of `min` from ⊤ is the infimum. -/
theorem fold_min_top_eq_inf {ι : Type} (s : Finset ι) (f : ι → EReal) : s.fold min ⊤ f = s.inf f := by
  induction s using Finset.cons_induction with
  | empty => rfl
  | cons a s ha ih => rw [Finset.fold_cons, Finset.inf_cons, ih]

theorem red2 : S8x4096x4096.Reduces [2] S8x4096 := by decide
theorem red1 : S8x4096x4096.Reduces [1] S8x4096 := by decide

/-- Over the result index (b, p), coordinate k on the last axis is the pair (b, p, k). -/
theorem lift2 (b : Fin 8) (p : Fin 4096) (k : Fin (S8x4096x4096.size 2)) :
    red2.lift (ix2 b p) k = ix3 b p (⟨k.val, k.isLt⟩ : Fin 4096) := by
  funext c; apply Fin.ext
  match c with | ⟨0, _⟩ => rfl | ⟨1, _⟩ => rfl | ⟨2, _⟩ => rfl

/-- Over the result index (b, q), coordinate k on the middle axis is the pair (b, k, q). -/
theorem lift1 (b : Fin 8) (q : Fin 4096) (k : Fin (S8x4096x4096.size 1)) :
    red1.lift (ix2 b q) k = ix3 b (⟨k.val, k.isLt⟩ : Fin 4096) q := by
  funext c; apply Fin.ext
  match c with | ⟨0, _⟩ => rfl | ⟨1, _⟩ => rfl | ⟨2, _⟩ => rfl

/-- The minimum over the last axis, from +∞: for each point of the second argument, its least squared distance. -/
theorem v15_apply (x0 x1 : FVec Ideal S8x4096x3 .f32) (h0 : ∀ i, ∃ r : ℝ, x0 i = r) (h1 : ∀ i, ∃ r : ℝ, x1 i = r)
    (i : S8x4096.Idx) : val_main_v15 (F := Ideal) x0 x1 i = cx x1 x0 i := by
  obtain ⟨b, p, rfl⟩ : ∃ (b : Fin 8) (p : Fin 4096), i = ix2 b p := ⟨i 0, i 1, eq_ix2 i⟩
  unfold val_main_v15
  rw [Host.reduce_eq_fold_single FloatOps.minimumf _ _ reducesTo_S8x4096x4096_S8x4096_d2 red2 h_S_]
  show Finset.fold min (Ideal.ofBits .f32 0x7F800000#32) (val_main_v14 (F := Ideal) x0 x1 ∘ red2.lift (ix2 b p))
      (Finset.univ : Finset (Fin 4096)) = Finset.inf Finset.univ (fun q : Fin 4096 => d2 x1 x0 b p q)
  rw [ofBits_top_f32, ← fold_min_top_eq_inf]
  refine Finset.fold_congr (fun k _ => ?_)
  show val_main_v14 (F := Ideal) x0 x1 (red2.lift (ix2 b p) k) = _
  rw [lift2]
  exact v14_apply x0 x1 h0 h1 b p k

/-- The minimum over the middle axis, from +∞: for each point of the first argument, its least squared distance. -/
theorem v16_apply (x0 x1 : FVec Ideal S8x4096x3 .f32) (h0 : ∀ i, ∃ r : ℝ, x0 i = r) (h1 : ∀ i, ∃ r : ℝ, x1 i = r)
    (i : S8x4096.Idx) : val_main_v16 (F := Ideal) x0 x1 i = cy x1 x0 i := by
  obtain ⟨b, q, rfl⟩ : ∃ (b : Fin 8) (q : Fin 4096), i = ix2 b q := ⟨i 0, i 1, eq_ix2 i⟩
  unfold val_main_v16
  rw [Host.reduce_eq_fold_single FloatOps.minimumf _ _ reducesTo_S8x4096x4096_S8x4096_d1 red1 h_S_]
  show Finset.fold min (Ideal.ofBits .f32 0x7F800000#32) (val_main_v14 (F := Ideal) x0 x1 ∘ red1.lift (ix2 b q))
      (Finset.univ : Finset (Fin 4096)) = Finset.inf Finset.univ (fun p : Fin 4096 => d2 x1 x0 b p q)
  rw [ofBits_top_f32, ← fold_min_top_eq_inf]
  refine Finset.fold_congr (fun k _ => ?_)
  show val_main_v14 (F := Ideal) x0 x1 (red1.lift (ix2 b q) k) = _
  rw [lift1]
  exact v14_apply x0 x1 h0 h1 b k q

/-! ## What follows the minima -/

/-- The reference's last operations as a function of the two arrays of minima and the mask: the first array times
    the mask (reshaped to one value per point), summed from 0 and divided by 32768, plus the second array summed from 0
    and divided by 32768. -/
def tail (a b : FVec Ideal S8x4096 .f32) (mask : FVec Ideal S2x4x1x64x64 .f32) : FVec Ideal S_ .f32 :=
  addf (Host.divf (Host.reduceAdd (mulf a (shapeCast _ mask shapeCasts_S2x4x1x64x64_S8x4096)) (constant (F := Ideal) S_ .f32 0x00000000#32) reducesTo_S8x4096_S_d0_1 h_S_) (constant (F := Ideal) S_ .f32 0x47000000#32)) (Host.divf (Host.reduceAdd b (constant (F := Ideal) S_ .f32 0x00000000#32) reducesTo_S8x4096_S_d0_1 h_S_) (constant (F := Ideal) S_ .f32 0x47000000#32))

/-- The reference's result stage, on real clouds, is the tail of the two specified minima. -/
theorem ref_value_stage (x0 x1 : FVec Ideal S8x4096x3 .f32) (x2 : FVec Ideal S2x4x1x64x64 .f32)
    (h0 : ∀ i, ∃ r : ℝ, x0 i = r) (h1 : ∀ i, ∃ r : ℝ, x1 i = r) :
    val_main_v23 (F := Ideal) x0 x1 x2 = tail (cx x1 x0) (cy x1 x0) x2 := by
  have e15 : val_main_v15 (F := Ideal) x0 x1 = cx x1 x0 := funext (v15_apply x0 x1 h0 h1)
  have e16 : val_main_v16 (F := Ideal) x0 x1 = cy x1 x0 := funext (v16_apply x0 x1 h0 h1)
  show tail (val_main_v15 (F := Ideal) x0 x1) (val_main_v16 (F := Ideal) x0 x1) x2 = _
  rw [e15, e16]

/-- The reference's result, as the term its run ends with, on real clouds: the tail of the two specified minima. -/
theorem ref_value (x0 x1 : FVec Ideal S8x4096x3 .f32) (x2 : FVec Ideal S2x4x1x64x64 .f32)
    (h0 : ∀ i, ∃ r : ℝ, x0 i = r) (h1 : ∀ i, ∃ r : ℝ, x1 i = r) :
    (addf (Host.divf (Host.reduceAdd (mulf (Host.reduce FloatOps.minimumf (maximumf (subf (addf (broadcastInDim S8x4096x4096 ![0, 1, 2] bcast_S8x4096x1_S8x4096x4096_0_1_2 (broadcastInDim S8x4096x1 ![0, 1] bcast_S8x4096_S8x4096x1_0_1 (Host.reduceAdd (mulf (x1) (x1)) (constant S_ .f32 0x00000000#32) reducesTo_S8x4096x3_S8x4096_d2 h_S_))) (broadcastInDim S8x4096x4096 ![0, 1, 2] bcast_S8x1x4096_S8x4096x4096_0_1_2 (broadcastInDim S8x1x4096 ![0, 2] bcast_S8x4096_S8x1x4096_0_2 (Host.reduceAdd (mulf (x0) (x0)) (constant S_ .f32 0x00000000#32) reducesTo_S8x4096x3_S8x4096_d2 h_S_)))) (mulf (broadcastInDim S8x4096x4096 ![] bcast_S_S8x4096x4096 (constant S_ .f32 0x40000000#32)) (Host.dotGeneral dot_S8x4096x3_S8x4096x3_S8x4096x4096_2_2_1_1_0_0 none (x1) (x0)))) (broadcastInDim S8x4096x4096 ![] bcast_S_S8x4096x4096 (constant S_ .f32 0x00000000#32))) (constant S_ .f32 0x7F800000#32) reducesTo_S8x4096x4096_S8x4096_d2 h_S_) (shapeCast _ (x2) shapeCasts_S2x4x1x64x64_S8x4096)) (constant S_ .f32 0x00000000#32) reducesTo_S8x4096_S_d0_1 h_S_) (constant S_ .f32 0x47000000#32)) (Host.divf (Host.reduceAdd (Host.reduce FloatOps.minimumf (maximumf (subf (addf (broadcastInDim S8x4096x4096 ![0, 1, 2] bcast_S8x4096x1_S8x4096x4096_0_1_2 (broadcastInDim S8x4096x1 ![0, 1] bcast_S8x4096_S8x4096x1_0_1 (Host.reduceAdd (mulf (x1) (x1)) (constant S_ .f32 0x00000000#32) reducesTo_S8x4096x3_S8x4096_d2 h_S_))) (broadcastInDim S8x4096x4096 ![0, 1, 2] bcast_S8x1x4096_S8x4096x4096_0_1_2 (broadcastInDim S8x1x4096 ![0, 2] bcast_S8x4096_S8x1x4096_0_2 (Host.reduceAdd (mulf (x0) (x0)) (constant S_ .f32 0x00000000#32) reducesTo_S8x4096x3_S8x4096_d2 h_S_)))) (mulf (broadcastInDim S8x4096x4096 ![] bcast_S_S8x4096x4096 (constant S_ .f32 0x40000000#32)) (Host.dotGeneral dot_S8x4096x3_S8x4096x3_S8x4096x4096_2_2_1_1_0_0 none (x1) (x0)))) (broadcastInDim S8x4096x4096 ![] bcast_S_S8x4096x4096 (constant S_ .f32 0x00000000#32))) (constant S_ .f32 0x7F800000#32) reducesTo_S8x4096x4096_S8x4096_d1 h_S_) (constant S_ .f32 0x00000000#32) reducesTo_S8x4096_S_d0_1 h_S_) (constant S_ .f32 0x47000000#32)) : FVec Ideal S_ .f32)
      = tail (cx x1 x0) (cy x1 x0) x2 :=
  (val_main_v23_eq (F := Ideal) x0 x1 x2).trans (ref_value_stage x0 x1 x2 h0 h1)

end Cert.ReferenceIdeal.RefValue

end
-- ==== Proof.Finite.lean ====
/-
  From the precondition to real coordinates.

  The precondition says, of each argument array, that every entry's absolute value is below +∞ (an "all" over the
  array, read back entry by entry).  An extended real whose absolute value is below +∞ is neither +∞ nor −∞, so it is
  a real number.
-/
import proofs.«151664_j2602750181383_2_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

instance : Subsingleton S_.Idx := ⟨fun a b => funext fun d => d.elim0⟩

/-- An extended real whose absolute value is below +∞ is a real number. -/
theorem real_of_abs_lt_top (x : EReal) (h : max x (-x) < ⊤) : ∃ r : ℝ, x = r := by
  induction x using EReal.rec with
  | bot => simp at h
  | coe r => exact ⟨r, rfl⟩
  | top => simp at h

/-- The printed comparison "|x| < +∞" holding of an entry says the entry is real. -/
theorem real_of_cmp (x : Ideal .f32)
    (h : FloatOps.cmpf .olt (FloatOps.hostAbsf x) (FloatOps.ofBits (F := Ideal) .f32 0x7F800000#32) = 1#1) :
    ∃ r : ℝ, x = r := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  by_cases hlt : max (x : EReal) (-(x : EReal)) < ⊤
  · exact real_of_abs_lt_top x hlt
  · simp [hlt] at h

variable [Facts]

/-- Under the precondition the first two argument arrays hold real numbers. -/
theorem real_of_pre (a0 a1 : FVec Ideal S8x4096x3 .f32) (a2 : FVec Ideal S2x4x1x64x64 .f32)
    (h : Cert.Pre_finite_inputs.fn (F := Ideal) a0 a1 a2 = fun _ => 1#1) :
    (∀ i, ∃ r : ℝ, a0 i = r) ∧ (∀ i, ∃ r : ℝ, a1 i = r) := by
  have h' := congrFun h ValueIdx.ix0
  dsimp only [Cert.Pre_finite_inputs.fn] at h'
  obtain ⟨h01, _⟩ := IntOp.andi_eq_one.1 h'
  obtain ⟨hA, hB⟩ := IntOp.andi_eq_one.1 h01
  refine ⟨fun i => ?_, fun i => ?_⟩
  · exact real_of_cmp (a0 i) (Host.reduce_andi_all _ _ _ _ _ hA i)
  · exact real_of_cmp (a1 i) (Host.reduce_andi_all _ _ _ _ _ hB i)

end Cert.Pre_finite_inputs.Finite

end
-- ==== Proof.KIHostMin.lean ====
/-
  The host's last minimum.

  The kernel leaves, for each of the 8 tiles of points of the first cloud, one array of partial minima; the host takes
  the minimum of the 8 from +∞.  A minimum-reduce over one axis is the fold of `min` over that axis's coordinates,
  and from ⊤ that fold is the infimum: at (b, col) it is the infimum of the 8 arrays' entries at (b, col).
-/
import proofs.«151664_j2602750181383_2_alg».proof.KernelIdeal
import proofs.«151664_j2602750181383_2_alg».proof.Proof.Tiles
import Idealize.ShloMosaic.Lib.ValueIdx
import Idealize.ShloMosaic.PureOps.Reduce
import Idealize.ShloMosaic.PureOps.Ideal.Laws

noncomputable section

namespace Cert.KernelIdeal.HostMin

open Cert.KernelIdeal Idealize.ShloMosaic Idealize.ShloMosaic.ValueIdx Cert.Chamfer

theorem red0 : S8x8x4096.Reduces [0] S8x4096 := by decide

/-- Over the result index (b, col), coordinate k on the first axis is (k, b, col). -/
theorem lift_first (b : Fin 8) (col : Fin 4096) (k : Fin (S8x8x4096.size 0)) :
    red0.lift (ix2 b col) k = ix3 (⟨k.val, k.isLt⟩ : Fin 8) b col := by
  funext c; apply Fin.ext
  match c with | ⟨0, _⟩ => rfl | ⟨1, _⟩ => rfl | ⟨2, _⟩ => rfl

/-- The host's minimum over the 8 partial arrays, from +∞, at (b, col): the infimum of the 8 entries there.
    Stated for any proofs of the two shape facts. -/
theorem host_min_apply' (W : FVec Ideal S8x8x4096 .f32) (h' : S8x8x4096.ReducesTo [0] S8x4096) (hu : 0 < S_.numel)
    (b : Fin 8) (col : Fin 4096) :
    Host.reduce (FloatOps.minimumf (F := Ideal)) W (constant (F := Ideal) S_ .f32 0x7F800000#32) h' hu (ix2 b col)
      = Finset.univ.inf fun a : Fin 8 => W (ix3 a b col) := by
  rw [Host.reduce_eq_fold_single FloatOps.minimumf _ _ h' red0 hu]
  show Finset.fold min (Ideal.ofBits .f32 0x7F800000#32) (W ∘ red0.lift (ix2 b col)) (Finset.univ : Finset (Fin 8))
      = Finset.inf Finset.univ (fun a : Fin 8 => W (ix3 a b col))
  have htop : Ideal.ofBits .f32 0x7F800000#32 = ⊤ := by simp [Ideal.ofBits, Ideal.ieee]
  rw [htop, ← fold_min_top_eq_inf]
  refine Finset.fold_congr (fun k _ => ?_)
  exact congrArg W (lift_first b col k)

/-- The same at an index not split into coordinates. -/
theorem host_min_apply_idx' (W : FVec Ideal S8x8x4096 .f32) (h' : S8x8x4096.ReducesTo [0] S8x4096) (hu : 0 < S_.numel)
    (i : S8x4096.Idx) :
    Host.reduce (FloatOps.minimumf (F := Ideal)) W (constant (F := Ideal) S_ .f32 0x7F800000#32) h' hu i
      = Finset.univ.inf fun a : Fin 8 => W (ix3 a (i 0) (i 1)) := by
  have e : i = ix2 (i 0) (i 1) := eq_ix2 i
  rw [e]
  exact host_min_apply' W h' hu (i 0) (i 1)

section
variable [Facts₀]
open Facts₀

/-- With the program's own facts, as the host's line is printed. -/
theorem host_min_apply (W : FVec Ideal S8x8x4096 .f32) (b : Fin 8) (col : Fin 4096) :
    Host.reduce (FloatOps.minimumf (F := Ideal)) W (constant (F := Ideal) S_ .f32 0x7F800000#32)
        reducesTo_S8x8x4096_S8x4096_d0 h_S_ (ix2 b col)
      = Finset.univ.inf fun a : Fin 8 => W (ix3 a b col) :=
  host_min_apply' W _ _ b col

theorem host_min_apply_idx (W : FVec Ideal S8x8x4096 .f32) (i : S8x4096.Idx) :
    Host.reduce (FloatOps.minimumf (F := Ideal)) W (constant (F := Ideal) S_ .f32 0x7F800000#32)
        reducesTo_S8x8x4096_S8x4096_d0 h_S_ i
      = Finset.univ.inf fun a : Fin 8 => W (ix3 a (i 0) (i 1)) :=
  host_min_apply_idx' W _ _ i

end

end Cert.KernelIdeal.HostMin

end
-- ==== Proof.KICy.lean ====
/-
  The host's minimum of the partial arrays as the specification's `cy`.

  If partial array `a` holds, at (b, q), the least squared distance of point q of the second cloud to the points of
  tile `a` of the first, the host's minimum of the 8 arrays is `cy`: an infimum over the tiles of the tiles' infima is
  the infimum over all 4096 points.
-/
import proofs.«151664_j2602750181383_2_alg».proof.Proof.KIHostMin
import proofs.«151664_j2602750181383_2_alg».proof.Proof.Spec

noncomputable section

namespace Cert.KernelIdeal.HostMin

open Cert.KernelIdeal Idealize.ShloMosaic Idealize.ShloMosaic.ValueIdx Cert.Chamfer

/-- At one index. -/
theorem cy_of_partials_apply (x y : Cloud.Idx → EReal) (P : FVec Ideal S8x8x4096 .f32)
    (hP : ∀ (a : Fin 8) (b : Fin 8) (q : Fin 4096), P (ix3 a b q)
      = Finset.univ.inf fun r : Fin 512 => d2 x y b ⟨512 * a.val + r.val, tile_lt (n := 8) (m := 512) a r⟩ q)
    (h' : S8x8x4096.ReducesTo [0] S8x4096) (hu : 0 < S_.numel) (i : S8x4096.Idx) :
    Host.reduce (FloatOps.minimumf (F := Ideal)) P (constant (F := Ideal) S_ .f32 0x7F800000#32) h' hu i = cy x y i := by
  obtain ⟨b, q, rfl⟩ : ∃ (b : Fin 8) (q : Fin 4096), i = ix2 b q := ⟨i 0, i 1, eq_ix2 i⟩
  rw [host_min_apply']
  show _ = Finset.univ.inf fun p : Fin 4096 => d2 x y b p q
  rw [inf_tiles8 (fun p : Fin 4096 => d2 x y b p q)]
  exact Finset.inf_congr rfl fun a _ => hP a b q

/-- The host's minimum of the 8 partial arrays is `cy`, when each partial array holds its tile's infimum; for any
    proofs of the two shape facts. -/
theorem cy_of_partials' (x y : Cloud.Idx → EReal) (P : FVec Ideal S8x8x4096 .f32)
    (hP : ∀ (a : Fin 8) (b : Fin 8) (q : Fin 4096), P (ix3 a b q)
      = Finset.univ.inf fun r : Fin 512 => d2 x y b ⟨512 * a.val + r.val, tile_lt (n := 8) (m := 512) a r⟩ q)
    (h' : S8x8x4096.ReducesTo [0] S8x4096) (hu : 0 < S_.numel) :
    Host.reduce (FloatOps.minimumf (F := Ideal)) P (constant (F := Ideal) S_ .f32 0x7F800000#32) h' hu = cy x y :=
  funext fun i => cy_of_partials_apply x y P hP h' hu i

section
variable [Facts₀]
open Facts₀

/-- With the program's own facts, as the host's line is printed. -/
theorem cy_of_partials (x y : Cloud.Idx → EReal) (P : FVec Ideal S8x8x4096 .f32)
    (hP : ∀ (a : Fin 8) (b : Fin 8) (q : Fin 4096), P (ix3 a b q)
      = Finset.univ.inf fun r : Fin 512 => d2 x y b ⟨512 * a.val + r.val, tile_lt (n := 8) (m := 512) a r⟩ q) :
    Host.reduce (FloatOps.minimumf (F := Ideal)) P (constant (F := Ideal) S_ .f32 0x7F800000#32)
        reducesTo_S8x8x4096_S8x4096_d0 h_S_ = cy x y :=
  cy_of_partials' x y P hP _ _

end

end Cert.KernelIdeal.HostMin

end
-- ==== Proof.TailEq.lean ====
/-
  The two programs end with the same operations.

  After the two arrays of minima, both programs multiply the first by the mask (reshaped to one value per point), sum
  it from 0 and divide by 32768, sum the second from 0 and divide by 32768, and add the two.  The kernel's spelling of
  these operations, over its own shapes and shape facts, is the reference's function `tail`.
-/
import proofs.«151664_j2602750181383_2_alg».proof.KernelIdeal
import proofs.«151664_j2602750181383_2_alg».proof.Proof.Gen.KernelIdeal
import proofs.«151664_j2602750181383_2_alg».proof.Proof.RefValue

noncomputable section

namespace Cert.KernelIdeal.TailEq

open Cert.KernelIdeal Cert.KernelIdeal.Gen Idealize.ShloMosaic

/-- The kernel's last operations, applied to two arrays of minima and the mask, are the reference's `tail`; for any
    proofs of the three shape facts. -/
theorem kernel_tail_eq' (A B : FVec Ideal S8x4096 .f32) (mask : FVec Ideal S2x4x1x64x64 .f32)
    (hsc : S2x4x1x64x64.ShapeCasts S8x4096) (hr : S8x4096.ReducesTo [0, 1] S_) (hu : 0 < S_.numel) :
    (addf (Host.divf (Host.reduceAdd (mulf A (shapeCast S8x4096 mask hsc)) (constant (F := Ideal) S_ .f32 0x00000000#32) hr hu) (constant (F := Ideal) S_ .f32 0x47000000#32)) (Host.divf (Host.reduceAdd B (constant (F := Ideal) S_ .f32 0x00000000#32) hr hu) (constant (F := Ideal) S_ .f32 0x47000000#32)) : FVec Ideal S_ .f32)
      = Cert.ReferenceIdeal.RefValue.tail A B mask :=
  rfl

/-- The same with the program's proved facts, as the host's lines are printed. -/
theorem kernel_tail_eq (A B : FVec Ideal S8x4096 .f32) (mask : FVec Ideal S2x4x1x64x64 .f32) :
    (addf (Host.divf (Host.reduceAdd (mulf A (shapeCast S8x4096 mask shapeCasts_S2x4x1x64x64_S8x4096)) (constant (F := Ideal) S_ .f32 0x00000000#32) reducesTo_S8x4096_S_d0_1 h_S_) (constant (F := Ideal) S_ .f32 0x47000000#32)) (Host.divf (Host.reduceAdd B (constant (F := Ideal) S_ .f32 0x00000000#32) reducesTo_S8x4096_S_d0_1 h_S_) (constant (F := Ideal) S_ .f32 0x47000000#32)) : FVec Ideal S_ .f32)
      = Cert.ReferenceIdeal.RefValue.tail A B mask :=
  rfl

end Cert.KernelIdeal.TailEq

end
-- ==== Proof.lean ====
/-
  Both programs compute, for two clouds `x` and `y` of 8 × 4096 points in three dimensions and a mask: the mean over
  the 8 × 4096 points of `x` of (mask · squared distance to the nearest point of `y` in the same batch), plus the mean
  over the points of `y` of the squared distance to the nearest point of `x`.

  The kernel forms each squared distance as a sum of three squared coordinate differences, tile by tile (512 points of
  `x` against 256 points of `y`), keeps a running minimum over the tiles of `y` for the first direction, and for the
  second leaves one partial minimum per tile of `x`, which the host then minimises over the 8 tiles.  The reference
  forms |x|² + |y|² − 2 x·y, clamps it at 0, and takes both minima over whole axes.  Over real inputs the two squared
  distances are the same number (the expansion of a square, which is non-negative, so the clamp changes nothing), and
  a minimum over tiles of minima is the minimum over all points; the precondition makes the inputs real.  The two
  means are the same host operations in both programs.

  The frames of the two kernel programs are the pipeline's frame run over the body's three control cases (first,
  inner and last tile of a sweep); the reference's frame is its run with the result dropped.  The idealization rewrote
  nothing, so there is nothing to preserve.
-/
import proofs.«151664_j2602750181383_2_alg».proof.Defs
import proofs.«151664_j2602750181383_2_alg».proof.Proof.Gen.Kernel
import proofs.«151664_j2602750181383_2_alg».proof.Proof.Gen.KernelIdeal
import proofs.«151664_j2602750181383_2_alg».proof.Proof.Gen.ReferenceIdeal
import proofs.«151664_j2602750181383_2_alg».proof.Proof.Gen.Pre_finite_inputs
import proofs.«151664_j2602750181383_2_alg».proof.Proof.Gen.ReferenceIdeal.Run
import proofs.«151664_j2602750181383_2_alg».proof.Proof.KBody
import proofs.«151664_j2602750181383_2_alg».proof.Proof.KIResult
import proofs.«151664_j2602750181383_2_alg».proof.Proof.RefValue
import proofs.«151664_j2602750181383_2_alg».proof.Proof.Finite
import proofs.«151664_j2602750181383_2_alg».proof.Proof.KICy
import proofs.«151664_j2602750181383_2_alg».proof.Proof.TailEq
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result (nearest-neighbour distances by tiles, partial minima finished on the host) and the
    reference's (expanded squares, clamped, whole-axis minima) are the same extended real on real inputs. -/
theorem algebraic : Cert.algebraic_KernelIdeal_ReferenceIdeal := by
  intro m ρ m' ρ' hpre hagree
  refine ⟨fun c => Cert.KernelIdeal.Body.tailK
      (Cert.Chamfer.cx (Cert.KernelIdeal.Body.cloudX m c) (Cert.KernelIdeal.Body.cloudY m c))
      (Cert.KernelIdeal.Body.partials m c) (m ((c.tc : Thread Cert.KernelIdeal.nD Cert.KernelIdeal.τ).loc Cert.KernelIdeal.main_arg2)),
    Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  obtain ⟨h0, h1⟩ := Cert.Pre_finite_inputs.Finite.real_of_pre _ _ _ (hpre c)
  refine (Cert.ReferenceIdeal.RefValue.ref_value _ _ _ h0 h1).trans ?_
  show _ = Cert.KernelIdeal.Body.tailK
    (Cert.Chamfer.cx (Cert.KernelIdeal.Body.cloudX m c) (Cert.KernelIdeal.Body.cloudY m c))
    (Cert.KernelIdeal.Body.partials m c) (m ((c.tc : Thread Cert.KernelIdeal.nD Cert.KernelIdeal.τ).loc Cert.KernelIdeal.main_arg2))
  unfold Cert.KernelIdeal.Body.tailK
  rw [Cert.KernelIdeal.HostMin.cy_of_partials' (Cert.KernelIdeal.Body.cloudX m c) (Cert.KernelIdeal.Body.cloudY m c)
    (Cert.KernelIdeal.Body.partials m c) (fun a b q => rfl)]
  exact (Cert.KernelIdeal.TailEq.kernel_tail_eq _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
